-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x4096x1024 .f32) (main_arg1 : FVec F S1024x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S2x4096x1024 : Shape := ⟨3, ![2, 4096, 1024]⟩
abbrev S1024x1024 : Shape := ⟨2, ![1024, 1024]⟩
abbrev S2x1024x1024 : Shape := ⟨3, ![2, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024x1024, .f32⟩
  | .hbm, ⟨3, _⟩ => ⟨S2x4096x1024, .f32⟩
  | .hbm, ⟨4, _⟩ => ⟨S2x1024x1024, .f32⟩
  | .hbm, ⟨5, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x512x1024, .f32⟩
  | .local _ .vmem, ⟨13, _⟩ => ⟨S1x512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  shapeCasts_S512x1024_S1x512x1024 : S512x1024.ShapeCasts S1x512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .f32 = 32 ∨ (Rect.block (s := S2x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x4096x1024.size a
  hwx0_2 : ∀ i : grid0.Coords, EltTy.bits .f32 = 32 ∨ (Rect.block (s := S2x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x1024x1024.size a
  hwx0_3 : ∀ i : grid0.Coords, EltTy.bits .f32 = 32 ∨ (Rect.block (s := S2x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x4096x1024.size a
  hwx1_0 : ∀ i : grid1.Coords, EltTy.bits .f32 = 32 ∨ (Rect.block (s := S2x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S2x1024x1024.size a
  hwx1_1 : ∀ i : grid1.Coords, EltTy.bits .f32 = 32 ∨ (Rect.block (s := S2x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S2x4096x1024.size a
  hwx1_2 : ∀ i : grid1.Coords, EltTy.bits .f32 = 32 ∨ (Rect.block (s := S2x4096x1024) S1x512x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S2x4096x4096 : Shape := ⟨3, ![2, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S2x4096x1024, .f32⟩
  | .hbm, ⟨3, _⟩ => ⟨S2x4096x4096, .f32⟩
  | .hbm, ⟨4, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.Bits.QgShared.lean ====
/-
  The first pallas_call (grid 2 × 8, point t = 8·b + n): at tile n of batch b the body writes the tile's rows of
  Q = X · Wᵀ into output window 2 and adds Xₜᵀ · Xₜ into a scratch accumulator that it zeroes at n = 0 and copies
  into output window 3 (the Gram matrix of batch b) at n = 7. This module fixes what the three control cases
  share: the two branch conditions in closed form over the point, where window 3 is idle and where it is written
  back, names for the staging and scratch memrefs, and the region's scoped rest split into the accumulator and
  the six staging buffers of the second pallas_call, which only ride along.
-/
import proofs.«138249_j26345329393767_1_alg».proof.Proof.Gen.Kernel.Launch
import proofs.«138249_j26345329393767_1_alg».proof.Proof.Gen.Kernel.Skeleton
import proofs.«138249_j26345329393767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- The tile is the first of its batch (the accumulator is zeroed). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The tile is the last of its batch (the accumulator is copied out). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The Gram window is stored only at a batch's last tile; elsewhere it is idle and not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
abbrev accV : View sig .tc .vmem S1024x1024 .f32 := (accM : Memref sig .tc .vmem S1024x1024 .f32).view
/-- One staging buffer of each output window, through which its contents are stated. -/
abbrev qV : View sig .tc .vmem S1x512x1024 .f32 := (Memref.whole cc0_stg2_0 : Memref sig .tc .vmem S1x512x1024 .f32).view
abbrev gV : View sig .tc .vmem S1x1024x1024 .f32 := (Memref.whole cc0_stg3_0 : Memref sig .tc .vmem S1x1024x1024 .f32).view

/-! ## The region's scoped rest -/

/-- The second pallas_call's six staging buffers, each whole at some contents: scoped buffers this region never touches. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the region spelt out: the accumulator at some contents, the other scoped buffers, the generator register. -/
theorem PhiA0_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.Kernel.Lin

end
-- ==== Proof.Bits.QgRuns.lean ====
/-
  The body of the first pallas_call run once per control case, on whole memrefs: the X tile and Wᵀ at given
  contents, the Q window overwritten, the Gram window untouched unless the tile is a batch's last, the
  accumulator at what the tile before left (at anything for a batch's first tile, which zeroes it). Each run
  ends with the written buffers at a list of stored pieces, last store first; the lists are what the symbolic
  execution finds.
-/
import proofs.«138249_j26345329393767_1_alg».proof.Proof.Bits.QgShared

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- First tile of a batch: the accumulator is zeroed, then Xₜᵀ·Xₜ is added; Q's tile is stored; the Gram window is left as found. -/
noncomputable def runFirst (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : isFirst i) (hc1 : ¬isLast i)
    (x0 : Vec F S1x512x1024 .f32) (x1 : Vec F S1024x1024 .f32) :
    Σ' (L2 : List (View.Piece (Elt F) S1x512x1024 .f32)), { LS : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, fun xi3 E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

set_option maxHeartbeats 2000000 in
/-- A middle tile: Xₜᵀ·Xₜ is added to what the tile before left; Q's tile is stored; the Gram window is left as found. -/
noncomputable def runMid (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : ¬isFirst i) (hc1 : ¬isLast i)
    (x0 : Vec F S1x512x1024 .f32) (x1 : Vec F S1024x1024 .f32) (xs : Vec F S1024x1024 .f32) :
    Σ' (L2 : List (View.Piece (Elt F) S1x512x1024 .f32)), { LS : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, fun xi3 E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

set_option maxHeartbeats 2000000 in
/-- Last tile of a batch: as a middle tile, and then the accumulator is copied into the Gram window. -/
noncomputable def runLast (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : ¬isFirst i) (hc1 : isLast i)
    (x0 : Vec F S1x512x1024 .f32) (x1 : Vec F S1024x1024 .f32) (xs : Vec F S1024x1024 .f32) :
    Σ' (L2 : List (View.Piece (Elt F) S1x512x1024 .f32)) (L3 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, ?_, fun E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Lin

end
-- ==== Proof.Bits.QgData.lean ====
/-
  What the first pallas_call leaves, point by point, as explicit terms of the input blocks: at tile t the Q window
  holds the tile's product with Wᵀ; the accumulator holds zero plus XₜᵀXₜ at a batch's first tile and the tile
  before's contents plus XₜᵀXₜ afterwards; at a batch's last tile the Gram window holds the accumulator. Each
  control case's stored pieces are one whole-buffer store, so its canon is the store's payload. From these: the
  region invariant (the accumulator at the running sum, the other scoped buffers and the generator register riding
  along), the proof data, and the body obligation at every point. Stated at a parameter V, the buffer contents
  when the region is entered.
-/
import proofs.«138249_j26345329393767_1_alg».proof.Proof.Bits.QgRuns
import Idealize.ShloMosaic.Lib.Pipeline.Value

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Each case's pieces: they cover, and their canon is the store's payload -/

section Cases
variable (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole)

section First
variable (hc0 : isFirst i) (hc1 : ¬isLast i) (x0 : Vec F S1x512x1024 .f32) (x1 : Vec F S1024x1024 .f32)
theorem firstQ_cover (y : S1x512x1024.Idx) : ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x512x1024.size (by sl_kernel_rfl) y
theorem firstS_cover (y : S1024x1024.Idx) : ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1024x1024.size (by sl_kernel_rfl) y
/-- The Q window: the tile times Wᵀ. -/
theorem firstQ_eq : View.canon (runFirst c i arg2 harg2 arg3 harg3 arg4 harg4 arg5 harg5 arg6 harg6 hc0 hc1 x0 x1).1 = k0_pay3 x0 x1 := by
  unfold runFirst; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
/-- The accumulator: zero (stored, then read back) plus XₜᵀXₜ. -/
theorem firstS_eq : View.canon (runFirst c i arg2 harg2 arg3 harg3 arg4 harg4 arg5 harg5 arg6 harg6 hc0 hc1 x0 x1).2.1 = k0_pay4 x0 k0_pay1 := by
  unfold runFirst; dsimp only; try sl_unfold_words
  rw [View.canon_cons_unit_zero (S := S1024x1024) hz2]
  simp only [View.readAt_eq_ld, harg2.read_unread, View.ld_unit_zero (S := S1x512x1024) hz3, View.readCov_unit_zero (S := S1024x1024) _ hz2]
end First

section Mid
variable (hc0 : ¬isFirst i) (hc1 : ¬isLast i) (x0 : Vec F S1x512x1024 .f32) (x1 : Vec F S1024x1024 .f32) (xs : Vec F S1024x1024 .f32)
theorem midQ_cover (y : S1x512x1024.Idx) : ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x512x1024.size (by sl_kernel_rfl) y
theorem midS_cover (y : S1024x1024.Idx) : ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1024x1024.size (by sl_kernel_rfl) y
theorem midQ_eq : View.canon (runMid c i arg2 harg2 arg3 harg3 arg4 harg4 arg5 harg5 arg6 harg6 hc0 hc1 x0 x1 xs).1 = k0_pay3 x0 x1 := by
  unfold runMid; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
/-- The accumulator: what the tile before left plus XₜᵀXₜ. -/
theorem midS_eq : View.canon (runMid c i arg2 harg2 arg3 harg3 arg4 harg4 arg5 harg5 arg6 harg6 hc0 hc1 x0 x1 xs).2.1 = k0_pay4 x0 xs := by
  unfold runMid; dsimp only; try sl_unfold_words
  rw [View.canon_unit_zero (S := S1024x1024) hz2]
  simp only [View.readAt_eq_ld, harg2.read_unread, harg6.read_unread, View.ld_unit_zero (S := S1x512x1024) hz3, View.ld_unit_zero (S := S1024x1024) hz2]
end Mid

section Last
variable (hc0 : ¬isFirst i) (hc1 : isLast i) (x0 : Vec F S1x512x1024 .f32) (x1 : Vec F S1024x1024 .f32) (xs : Vec F S1024x1024 .f32)
theorem lastQ_cover (y : S1x512x1024.Idx) : ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x512x1024.size (by sl_kernel_rfl) y
theorem lastG_cover (y : S1x1024x1024.Idx) : ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x1024x1024.size (by sl_kernel_rfl) y
theorem lastS_cover (y : S1024x1024.Idx) : ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1024x1024.size (by sl_kernel_rfl) y
theorem lastQ_eq : View.canon (runLast c i arg2 harg2 arg3 harg3 arg4 harg4 arg5 harg5 arg6 harg6 hc0 hc1 x0 x1 xs).1 = k0_pay3 x0 x1 := by
  unfold runLast; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
theorem lastS_eq : View.canon (runLast c i arg2 harg2 arg3 harg3 arg4 harg4 arg5 harg5 arg6 harg6 hc0 hc1 x0 x1 xs).2.2.1 = k0_pay4 x0 xs := by
  unfold runLast; dsimp only; try sl_unfold_words
  rw [View.canon_unit_zero (S := S1024x1024) hz2]
  simp only [View.readAt_eq_ld, harg2.read_unread, harg6.read_unread, View.ld_unit_zero (S := S1x512x1024) hz3, View.ld_unit_zero (S := S1024x1024) hz2]
/-- The Gram window: the accumulator as just updated, read back and re-shaped. -/
theorem lastG_eq : View.canon (runLast c i arg2 harg2 arg3 harg3 arg4 harg4 arg5 harg5 arg6 harg6 hc0 hc1 x0 x1 xs).2.1 = k0_pay5 (k0_pay4 x0 xs) := by
  unfold runLast; dsimp only; try sl_unfold_words
  rw [View.canon_unit_zero (S := S1x1024x1024) hz3]
  simp only [View.readAt_eq_ld, harg2.read_unread, harg6.read_unread, View.ld_unit_zero (S := S1x512x1024) hz3, View.ld_unit_zero (S := S1024x1024) hz2, View.readCov_unit_zero (S := S1024x1024) _ hz2]
end Last
end Cases

variable (V : (c : Dev nD) → (b : Ref sig .tc) → Buf (Elt F) ((c : Thread nD τ).loc b))

/-! ## The input blocks -/

/-- Window w's block at point t, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem qbefore0_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)
theorem qbefore1_of {c : Dev nD} (dat : Dat τ (Elt F) Unit ℕ (UR sig nD τ) ℕ cfg0 c) (hA : dat.A 1 = V c (Pipeline.arrRef spec0 1))
    (hafter : ∀ t, dat.after 1 t = qblk V c 1 t) (t : Fin cfg0.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-! ## The running sum -/

/-- The accumulator after point n: zero plus XₜᵀXₜ at a batch's first tile, the point before plus XₜᵀXₜ otherwise. -/
def accAt (c : Dev nD) : (n : ℕ) → n < cfg0.N → Vec F S1024x1024 .f32
  | 0, h => k0_pay4 (qblk V c 0 ⟨0, h⟩) k0_pay1
  | n + 1, h =>
    if (n + 1) % 8 = 0 then k0_pay4 (qblk V c 0 ⟨n + 1, h⟩) k0_pay1
    else k0_pay4 (qblk V c 0 ⟨n + 1, h⟩) (accAt c n (Nat.lt_of_succ_lt h))

theorem accAt_first (c : Dev nD) (t : Fin cfg0.N) (h : t.val % 8 = 0) :
    accAt V c t.val t.isLt = k0_pay4 (qblk V c 0 t) k0_pay1 := by
  obtain ⟨n, hn⟩ := t
  cases n with
  | zero => rfl
  | succ n => exact (if_pos h).trans rfl

theorem accAt_next (c : Dev nD) (t : Fin cfg0.N) (h : ¬t.val % 8 = 0) :
    accAt V c t.val t.isLt = k0_pay4 (qblk V c 0 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- Before the first point the class's; afterwards the accumulator at the running sum, the other scoped buffers
    at some contents, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => k0_pay3 (qblk V c 0 t) (qblk V c 1 t)
    | ⟨3, _⟩ => k0_pay5 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = qblk V c 0 t := by dsimp only [dat0]
theorem after0_1 (c : Dev nD) (t : Fin cfg0.N) : (dat0 V c).after 1 t = qblk V c 1 t := by dsimp only [dat0]
theorem after0_2 (c : Dev nD) (t : Fin cfg0.N) : (dat0 V c).after 2 t = k0_pay3 (qblk V c 0 t) (qblk V c 1 t) := by dsimp only [dat0]
theorem after0_3 (c : Dev nD) (t : Fin cfg0.N) : (dat0 V c).after 3 t = k0_pay5 (accAt V c t.val t.isLt) := by dsimp only [dat0]
theorem before0_0 (c : Dev nD) (t : Fin cfg0.N) (d) : (dat0 V c).before 0 t d = qblk V c 0 t :=
  qbefore0_of V (dat0 V c) (A_eq0 V c 0) (after0_0 V c) t d
theorem before0_1 (c : Dev nD) (t : Fin cfg0.N) (d) : (dat0 V c).before 1 t d = qblk V c 1 t :=
  qbefore1_of V (dat0 V c) (A_eq0 V c 1) (after0_1 V c) t d

/-! ## The body obligation -/

def qgPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def qgPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the closed forms select the case; the invariant hands the body the accumulator at what
    the point before left (at anything where the case zeroes it) and takes it back at this point's running sum. -/
theorem qgBody (c : Dev nD) (t : Fin cfg0.N) :
    qgPre V c t ⊢ wp frame (wpE (defs₀ (F := F)) Variants.none c none) Set.univ (bodyAt0 t) (fun _ => qgPost V c t) := by
  unfold qgPre qgPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  by_cases h0 : t.val % 8 = 0
  · by_cases h1 : t.val % 8 = 7
    · exfalso; omega
    · have hc0 : isFirst (grid0.coords t) := (isFirst_iff t).mpr h0
      have hc1 : ¬isLast (grid0.coords t) := fun h => h1 ((isLast_iff t).mp h)
      rw [Dat.leavesExact_idle (dat0 V c) 3 t (idle3 t hc1) (noFlush3 t hc1)]
      by_cases hz : t.val = 0
      ·
        rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) hc0 hc1 (qblk V c 0 t) (qblk V c 1 t)).2.2 _ Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (firstS_cover c (grid0.coords t) (ms0 t) (hs0 t) (ms1 t) (hs1 t) (ms2 t) (hs2 t) (ms3 t) (hs3 t) accM (Memref.isWhole_whole _) hc0 hc1 (qblk V c 0 t) (qblk V c 1 t))).trans ((firstS_eq c (grid0.coords t) (ms0 t) (hs0 t) (ms1 t) (hs1 t) (ms2 t) (hs2 t) (ms3 t) (hs3 t) accM (Memref.isWhole_whole _) hc0 hc1 (qblk V c 0 t) (qblk V c 1 t)).trans (accAt_first V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (firstQ_cover c (grid0.coords t) (ms0 t) (hs0 t) (ms1 t) (hs1 t) (ms2 t) (hs2 t) (ms3 t) (hs3 t) accM (Memref.isWhole_whole _) hc0 hc1 (qblk V c 0 t) (qblk V c 1 t))).trans (firstQ_eq c (grid0.coords t) (ms0 t) (hs0 t) (ms1 t) (hs1 t) (ms2 t) (hs2 t) (ms3 t) (hs3 t) accM (Memref.isWhole_whole _) hc0 hc1 (qblk V c 0 t) (qblk V c 1 t))
        iexists _; iexact H3
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) hc0 hc1 (qblk V c 0 t) (qblk V c 1 t)).2.2 _ Set.univ _)
        isplitl [H0]; · iexact H0
        isplitl [H1]; · iexact H1
        isplitl [H2]; · iexists _; iexact H2
        isplitl [H3]; · iexact H3
        isplitl [HS]; · iexists _; iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (firstS_cover c (grid0.coords t) (ms0 t) (hs0 t) (ms1 t) (hs1 t) (ms2 t) (hs2 t) (ms3 t) (hs3 t) accM (Memref.isWhole_whole _) hc0 hc1 (qblk V c 0 t) (qblk V c 1 t))).trans ((firstS_eq c (grid0.coords t) (ms0 t) (hs0 t) (ms1 t) (hs1 t) (ms2 t) (hs2 t) (ms3 t) (hs3 t) accM (Memref.isWhole_whole _) hc0 hc1 (qblk V c 0 t) (qblk V c 1 t)).trans (accAt_first V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (firstQ_cover c (grid0.coords t) (ms0 t) (hs0 t) (ms1 t) (hs1 t) (ms2 t) (hs2 t) (ms3 t) (hs3 t) accM (Memref.isWhole_whole _) hc0 hc1 (qblk V c 0 t) (qblk V c 1 t))).trans (firstQ_eq c (grid0.coords t) (ms0 t) (hs0 t) (ms1 t) (hs1 t) (ms2 t) (hs2 t) (ms3 t) (hs3 t) accM (Memref.isWhole_whole _) hc0 hc1 (qblk V c 0 t) (qblk V c 1 t))
        iexists _; iexact H3
  · have hz : t.val ≠ 0 := fun e => h0 (by rw [e])
    have hc0 : ¬isFirst (grid0.coords t) := fun h => h0 ((isFirst_iff t).mp h)
    by_cases h1 : t.val % 8 = 7
    · have hc1 : isLast (grid0.coords t) := (isLast_iff t).mpr h1
      rw [show (dat0 V c).leavesExact 3 t = owns (c : Thread nD τ) (ms3 t) fullShare ((dat0 V c).after 3 t) from by
        unfold Dat.leavesExact; rw [live3 t hc1], after0_3]
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).2.2.2 Set.univ _)
        isplitl [H0]; · iexact H0
        isplitl [H1]; · iexact H1
        isplitl [H2]; · iexists _; iexact H2
        isplitl [H3]; · iexists _; iexact H3
        isplitl [HS]; · iexact HS
        iintro ⟨H0, H1, ⟨%e2, H2⟩, ⟨%e3, H3⟩, ⟨%es, HS⟩⟩
        isplitl [HS Hoth Hg]
        · isplitl [HS Hoth]
          · isplitl [HS]
            · unfold owns; iexists _; isplitr
              swap; · iexact HS
              ipureintro; exact (View.read_writes_eq_canon _ _ _ (lastS_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((lastS_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (accAt_next V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (lastQ_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans (lastQ_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))
        unfold owns; iexists _; isplitr
        swap; · iexact H3
        ipureintro; exact (View.read_writes_eq_canon _ _ _ (lastG_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((lastG_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (congrArg k0_pay5 (accAt_next V c t h0).symm))
    · have hc1 : ¬isLast (grid0.coords t) := fun h => h1 ((isLast_iff t).mp h)
      rw [Dat.leavesExact_idle (dat0 V c) 3 t (idle3 t hc1) (noFlush3 t hc1)]
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).2.2 _ Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (midS_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((midS_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (accAt_next V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (midQ_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans (midQ_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))
        iexists _; iexact H3

theorem qgObligation (c : Dev nD) : BodyObligation (dat0 (F := F) V c) (defs₀ (F := F)) Variants.none () Set.univ := fun t => by
  rw [bigSep_W0, bigSep_W0]
  exact qgBody V c t

/-! ## The invariant's two ends -/

theorem qgIn (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem qgOut (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, Hoth⟩, Hg⟩
  isplitl [HS Hoth]
  · isplitl [HS]
    · iexists _; iexact HS
    iexact Hoth
  iexact Hg

end Cert.Kernel.Lin

end
-- ==== Proof.Bits.AvBody.lean ====
/-
  The second pallas_call (grid 2 × 8): at tile n of batch b the body multiplies the tile's rows of Q by the
  Gram matrix of batch b and stores the product as the tile's rows of the result. One control case, no scratch:
  the output's staging buffer after the body is one whole-block store of the payload of the two input blocks.
  Stated at a parameter V, the buffer contents when the region is entered.
-/
import proofs.«138249_j26345329393767_1_alg».proof.Proof.Gen.Kernel.Launch
import proofs.«138249_j26345329393767_1_alg».proof.Proof.Gen.Kernel.Skeleton
import proofs.«138249_j26345329393767_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

abbrev rTile : Rect S1x512x1024 := Rect.unit (s := S1x512x1024) ![0, 0, 0] S1x512x1024.size inb_S1x512x1024_S1x512x1024_0_0_0
abbrev rGram : Rect S1x1024x1024 := Rect.unit (s := S1x1024x1024) ![0, 0, 0] S1x1024x1024.size inb_S1x1024x1024_S1x1024x1024_0_0_0

/-- The result window's staging buffer after the body: its one store, of the product of the two input blocks. -/
def avOut (x0 : Vec F S1x512x1024 .f32) (x1 : Vec F S1x1024x1024 .f32) : Vec F S1x512x1024 .f32 :=
  View.canon [⟨rTile, k1_pay1 (View.ld x0 rTile) (View.ld x1 rGram)⟩]

theorem avCover (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

set_option maxHeartbeats 2000000 in
/-- The body on whole staging memrefs: inputs kept, the output at `avOut` of the inputs. -/
theorem avSound (c : Dev nD) (E : Set ℕ) (i : grid1.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole)
    (x0 : Vec F S1x512x1024 .f32) (x1 : Vec F S1x1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (avOut x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (avCover _)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => avOut (ablk V c 0 t) (ablk V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = ablk V c 0 t := by dsimp only [dat1]
theorem after1_1 (c : Dev nD) (t : Fin cfg1.N) : (dat1 V c).after 1 t = ablk V c 1 t := by dsimp only [dat1]
theorem after1_2 (c : Dev nD) (t : Fin cfg1.N) : (dat1 V c).after 2 t = avOut (ablk V c 0 t) (ablk V c 1 t) := by dsimp only [dat1]
theorem before1_0 (c : Dev nD) (t : Fin cfg1.N) (d) : (dat1 V c).before 0 t d = ablk V c 0 t :=
  abefore0_of V (dat1 V c) (A_eq1 V c 0) (after1_0 V c) t d
theorem before1_1 (c : Dev nD) (t : Fin cfg1.N) (d) : (dat1 V c).before 1 t d = ablk V c 1 t :=
  abefore1_of V (dat1 V c) (A_eq1 V c 1) (after1_1 V c) t d

def avPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def avPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem avBody (c : Dev nD) (t : Fin cfg1.N) :
    avPre V c t ⊢ wp frame (wpE (defs₀ (F := F)) Variants.none c none) Set.univ (bodyAt1 t) (fun _ => avPost V c t) := by
  unfold avPre avPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (avSound c Set.univ _ _ _ _ _ _ _ (ablk V c 0 t) (ablk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem avObligation (c : Dev nD) : BodyObligation (dat1 (F := F) V c) (defs₀ (F := F)) Variants.none () Set.univ := fun t => by
  rw [bigSep_W1, bigSep_W1]
  exact avBody V c t

end Cert.Kernel.Lin

end
-- ==== Proof.Bits.Run.lean ====
/-
  The whole program as three segments — the host transpose of the weights, the first pallas_call, the second — and
  its run. The buffer contents at each segment boundary are a fold from the launch memory: after the transpose; then
  the first region's arrays at what its write-backs leave (Q and the Gram matrices), every other buffer as entered;
  then the same for the second region (the result). Every weakly fair execution terminates and every unscoped
  buffer ends at the last fold; the two arguments walk back through the fold to their launch contents.
-/
import proofs.«138249_j26345329393767_1_alg».proof.Proof.Bits.QgData
import proofs.«138249_j26345329393767_1_alg».proof.Proof.Bits.AvBody

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the transpose: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The activations: no array of the second region; an input window of the first; not written by the transpose. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
/-- The weights: an array of neither region; not written by the transpose (which writes its own result). -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
/-- The result is the second region's third array at what its write-backs leave. -/
theorem W3_main_v2 (c : Dev nD) : W3 m ρ c (Proc.devRef .tc main_v2) = (dat1 (V2 m ρ) c).arrAt 2 cfg1.N :=
  W3_arr m ρ c 2

/-! ## The proof data family and the thread state -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem transposeFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call as a segment: entered with every unscoped buffer at `W1`, left with them at `W2`; its
    arrays are split out of the unscoped buffers at entry and put back at their final contents at exit; the generator
    register goes into the region invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qgObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (qgIn (V1 m ρ) c)
    unfold Pipeline.ΦA
    iintro ⟨Hp, -, Hr⟩
    isplitl [Hr]; · iexact Hr
    iexact Hp
  hout c := by
    rw [Pipeline.ownSems0_none]
    refine (qgOut (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered with every unscoped buffer at `W2`, left with them at `W3`; its
    arrays are split out of the unscoped buffers at entry and put back at their final contents at exit; the generator
    register goes into the region invariant and comes back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (avObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg hostOps0 hostOps0_sub transposeFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer ends at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Lin

end
-- ==== Proof.Ideal.QgShared.lean ====
/-
  The first pallas_call (grid 2 × 8, point t = 8·b + n): at tile n of batch b the body writes the tile's rows of
  Q = X · Wᵀ into output window 2 and adds Xₜᵀ · Xₜ into a scratch accumulator that it zeroes at n = 0 and copies
  into output window 3 (the Gram matrix of batch b) at n = 7. This module fixes what the three control cases
  share: the two branch conditions in closed form over the point, where window 3 is idle and where it is written
  back, names for the staging and scratch memrefs, and the region's scoped rest split into the accumulator and
  the six staging buffers of the second pallas_call, which only ride along.
-/
import proofs.«138249_j26345329393767_1_alg».proof.Proof.Gen.KernelIdeal.Launch
import proofs.«138249_j26345329393767_1_alg».proof.Proof.Gen.KernelIdeal.Skeleton
import proofs.«138249_j26345329393767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- The tile is the first of its batch (the accumulator is zeroed). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The tile is the last of its batch (the accumulator is copied out). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The Gram window is stored only at a batch's last tile; elsewhere it is idle and not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
abbrev accV : View sig .tc .vmem S1024x1024 .f32 := (accM : Memref sig .tc .vmem S1024x1024 .f32).view
/-- One staging buffer of each output window, through which its contents are stated. -/
abbrev qV : View sig .tc .vmem S1x512x1024 .f32 := (Memref.whole cc0_stg2_0 : Memref sig .tc .vmem S1x512x1024 .f32).view
abbrev gV : View sig .tc .vmem S1x1024x1024 .f32 := (Memref.whole cc0_stg3_0 : Memref sig .tc .vmem S1x1024x1024 .f32).view

/-! ## The region's scoped rest -/

/-- The second pallas_call's six staging buffers, each whole at some contents: scoped buffers this region never touches. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the region spelt out: the accumulator at some contents, the other scoped buffers, the generator register. -/
theorem PhiA0_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.KernelIdeal.Lin

end
-- ==== Proof.Ideal.QgRuns.lean ====
/-
  The body of the first pallas_call run once per control case, on whole memrefs: the X tile and Wᵀ at given
  contents, the Q window overwritten, the Gram window untouched unless the tile is a batch's last, the
  accumulator at what the tile before left (at anything for a batch's first tile, which zeroes it). Each run
  ends with the written buffers at a list of stored pieces, last store first; the lists are what the symbolic
  execution finds.
-/
import proofs.«138249_j26345329393767_1_alg».proof.Proof.Ideal.QgShared

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- First tile of a batch: the accumulator is zeroed, then Xₜᵀ·Xₜ is added; Q's tile is stored; the Gram window is left as found. -/
noncomputable def runFirst (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : isFirst i) (hc1 : ¬isLast i)
    (x0 : Vec F S1x512x1024 .f32) (x1 : Vec F S1024x1024 .f32) :
    Σ' (L2 : List (View.Piece (Elt F) S1x512x1024 .f32)), { LS : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, fun xi3 E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

set_option maxHeartbeats 2000000 in
/-- A middle tile: Xₜᵀ·Xₜ is added to what the tile before left; Q's tile is stored; the Gram window is left as found. -/
noncomputable def runMid (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : ¬isFirst i) (hc1 : ¬isLast i)
    (x0 : Vec F S1x512x1024 .f32) (x1 : Vec F S1024x1024 .f32) (xs : Vec F S1024x1024 .f32) :
    Σ' (L2 : List (View.Piece (Elt F) S1x512x1024 .f32)), { LS : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, fun xi3 E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

set_option maxHeartbeats 2000000 in
/-- Last tile of a batch: as a middle tile, and then the accumulator is copied into the Gram window. -/
noncomputable def runLast (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hc0 : ¬isFirst i) (hc1 : isLast i)
    (x0 : Vec F S1x512x1024 .f32) (x1 : Vec F S1024x1024 .f32) (xs : Vec F S1024x1024 .f32) :
    Σ' (L2 : List (View.Piece (Elt F) S1x512x1024 .f32)) (L3 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__qg_kernel i arg2 harg2 arg3 harg3 arg4 harg4 arg5 harg5 arg6 harg6) K } := by
  refine ⟨?_, ?_, ?_, fun E K => ?run⟩
  case run =>
    simp only [cc0__qg_kernel_eq_skeleton]; unfold cc0__qg_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Lin

end
-- ==== Proof.Ideal.QgData.lean ====
/-
  What the first pallas_call leaves, point by point, as explicit terms of the input blocks: at tile t the Q window
  holds the tile's product with Wᵀ; the accumulator holds zero plus XₜᵀXₜ at a batch's first tile and the tile
  before's contents plus XₜᵀXₜ afterwards; at a batch's last tile the Gram window holds the accumulator. Each
  control case's stored pieces are one whole-buffer store, so its canon is the store's payload. From these: the
  region invariant (the accumulator at the running sum, the other scoped buffers and the generator register riding
  along), the proof data, and the body obligation at every point. Stated at a parameter V, the buffer contents
  when the region is entered.
-/
import proofs.«138249_j26345329393767_1_alg».proof.Proof.Ideal.QgRuns
import Idealize.ShloMosaic.Lib.Pipeline.Value

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Each case's pieces: they cover, and their canon is the store's payload -/

section Cases
variable (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole)

section First
variable (hc0 : isFirst i) (hc1 : ¬isLast i) (x0 : Vec F S1x512x1024 .f32) (x1 : Vec F S1024x1024 .f32)
theorem firstQ_cover (y : S1x512x1024.Idx) : ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x512x1024.size (by sl_kernel_rfl) y
theorem firstS_cover (y : S1024x1024.Idx) : ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1024x1024.size (by sl_kernel_rfl) y
/-- The Q window: the tile times Wᵀ. -/
theorem firstQ_eq : View.canon (runFirst c i arg2 harg2 arg3 harg3 arg4 harg4 arg5 harg5 arg6 harg6 hc0 hc1 x0 x1).1 = k0_pay3 x0 x1 := by
  unfold runFirst; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
/-- The accumulator: zero (stored, then read back) plus XₜᵀXₜ. -/
theorem firstS_eq : View.canon (runFirst c i arg2 harg2 arg3 harg3 arg4 harg4 arg5 harg5 arg6 harg6 hc0 hc1 x0 x1).2.1 = k0_pay4 x0 k0_pay1 := by
  unfold runFirst; dsimp only; try sl_unfold_words
  rw [View.canon_cons_unit_zero (S := S1024x1024) hz2]
  simp only [View.readAt_eq_ld, harg2.read_unread, View.ld_unit_zero (S := S1x512x1024) hz3, View.readCov_unit_zero (S := S1024x1024) _ hz2]
end First

section Mid
variable (hc0 : ¬isFirst i) (hc1 : ¬isLast i) (x0 : Vec F S1x512x1024 .f32) (x1 : Vec F S1024x1024 .f32) (xs : Vec F S1024x1024 .f32)
theorem midQ_cover (y : S1x512x1024.Idx) : ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x512x1024.size (by sl_kernel_rfl) y
theorem midS_cover (y : S1024x1024.Idx) : ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1024x1024.size (by sl_kernel_rfl) y
theorem midQ_eq : View.canon (runMid c i arg2 harg2 arg3 harg3 arg4 harg4 arg5 harg5 arg6 harg6 hc0 hc1 x0 x1 xs).1 = k0_pay3 x0 x1 := by
  unfold runMid; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
/-- The accumulator: what the tile before left plus XₜᵀXₜ. -/
theorem midS_eq : View.canon (runMid c i arg2 harg2 arg3 harg3 arg4 harg4 arg5 harg5 arg6 harg6 hc0 hc1 x0 x1 xs).2.1 = k0_pay4 x0 xs := by
  unfold runMid; dsimp only; try sl_unfold_words
  rw [View.canon_unit_zero (S := S1024x1024) hz2]
  simp only [View.readAt_eq_ld, harg2.read_unread, harg6.read_unread, View.ld_unit_zero (S := S1x512x1024) hz3, View.ld_unit_zero (S := S1024x1024) hz2]
end Mid

section Last
variable (hc0 : ¬isFirst i) (hc1 : isLast i) (x0 : Vec F S1x512x1024 .f32) (x1 : Vec F S1024x1024 .f32) (xs : Vec F S1024x1024 .f32)
theorem lastQ_cover (y : S1x512x1024.Idx) : ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x512x1024.size (by sl_kernel_rfl) y
theorem lastG_cover (y : S1x1024x1024.Idx) : ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x1024x1024.size (by sl_kernel_rfl) y
theorem lastS_cover (y : S1024x1024.Idx) : ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1024x1024.size (by sl_kernel_rfl) y
theorem lastQ_eq : View.canon (runLast c i arg2 harg2 arg3 harg3 arg4 harg4 arg5 harg5 arg6 harg6 hc0 hc1 x0 x1 xs).1 = k0_pay3 x0 x1 := by
  unfold runLast; dsimp only; try sl_unfold_words
  rw [View.canon_unit_zero (S := S1x512x1024) hz3]
  simp only [View.readAt_eq_ld, harg2.read_unread, harg3.read_unread, View.ld_unit_zero (S := S1x512x1024) hz3, View.ld_unit_zero (S := S1024x1024) hz2]
theorem lastS_eq : View.canon (runLast c i arg2 harg2 arg3 harg3 arg4 harg4 arg5 harg5 arg6 harg6 hc0 hc1 x0 x1 xs).2.2.1 = k0_pay4 x0 xs := by
  unfold runLast; dsimp only; try sl_unfold_words
  rw [View.canon_unit_zero (S := S1024x1024) hz2]
  simp only [View.readAt_eq_ld, harg2.read_unread, harg6.read_unread, View.ld_unit_zero (S := S1x512x1024) hz3, View.ld_unit_zero (S := S1024x1024) hz2]
/-- The Gram window: the accumulator as just updated, read back and re-shaped. -/
theorem lastG_eq : View.canon (runLast c i arg2 harg2 arg3 harg3 arg4 harg4 arg5 harg5 arg6 harg6 hc0 hc1 x0 x1 xs).2.1 = k0_pay5 (k0_pay4 x0 xs) := by
  unfold runLast; dsimp only; try sl_unfold_words
  rw [View.canon_unit_zero (S := S1x1024x1024) hz3]
  simp only [View.readAt_eq_ld, harg2.read_unread, harg6.read_unread, View.ld_unit_zero (S := S1x512x1024) hz3, View.ld_unit_zero (S := S1024x1024) hz2, View.readCov_unit_zero (S := S1024x1024) _ hz2]
end Last
end Cases

variable (V : (c : Dev nD) → (b : Ref sig .tc) → Buf (Elt F) ((c : Thread nD τ).loc b))

/-! ## The input blocks -/

/-- Window w's block at point t, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem qbefore0_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)
theorem qbefore1_of {c : Dev nD} (dat : Dat τ (Elt F) Unit ℕ (UR sig nD τ) ℕ cfg0 c) (hA : dat.A 1 = V c (Pipeline.arrRef spec0 1))
    (hafter : ∀ t, dat.after 1 t = qblk V c 1 t) (t : Fin cfg0.N) (d) : dat.before 1 t d = qblk V c 1 t :=
  (dat.before_in_eq_fetched 1 rfl (fun _ => rfl) (fun _ _ _ => rfl) (fun t => by rw [hafter]; unfold Dat.blockOf qblk; rw [hA]; try rfl) t d).trans
    (by unfold Dat.fetched Dat.blockOf qblk; rw [hA]; try rfl)

/-! ## The running sum -/

/-- The accumulator after point n: zero plus XₜᵀXₜ at a batch's first tile, the point before plus XₜᵀXₜ otherwise. -/
def accAt (c : Dev nD) : (n : ℕ) → n < cfg0.N → Vec F S1024x1024 .f32
  | 0, h => k0_pay4 (qblk V c 0 ⟨0, h⟩) k0_pay1
  | n + 1, h =>
    if (n + 1) % 8 = 0 then k0_pay4 (qblk V c 0 ⟨n + 1, h⟩) k0_pay1
    else k0_pay4 (qblk V c 0 ⟨n + 1, h⟩) (accAt c n (Nat.lt_of_succ_lt h))

theorem accAt_first (c : Dev nD) (t : Fin cfg0.N) (h : t.val % 8 = 0) :
    accAt V c t.val t.isLt = k0_pay4 (qblk V c 0 t) k0_pay1 := by
  obtain ⟨n, hn⟩ := t
  cases n with
  | zero => rfl
  | succ n => exact (if_pos h).trans rfl

theorem accAt_next (c : Dev nD) (t : Fin cfg0.N) (h : ¬t.val % 8 = 0) :
    accAt V c t.val t.isLt = k0_pay4 (qblk V c 0 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- Before the first point the class's; afterwards the accumulator at the running sum, the other scoped buffers
    at some contents, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => k0_pay3 (qblk V c 0 t) (qblk V c 1 t)
    | ⟨3, _⟩ => k0_pay5 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = qblk V c 0 t := by dsimp only [dat0]
theorem after0_1 (c : Dev nD) (t : Fin cfg0.N) : (dat0 V c).after 1 t = qblk V c 1 t := by dsimp only [dat0]
theorem after0_2 (c : Dev nD) (t : Fin cfg0.N) : (dat0 V c).after 2 t = k0_pay3 (qblk V c 0 t) (qblk V c 1 t) := by dsimp only [dat0]
theorem after0_3 (c : Dev nD) (t : Fin cfg0.N) : (dat0 V c).after 3 t = k0_pay5 (accAt V c t.val t.isLt) := by dsimp only [dat0]
theorem before0_0 (c : Dev nD) (t : Fin cfg0.N) (d) : (dat0 V c).before 0 t d = qblk V c 0 t :=
  qbefore0_of V (dat0 V c) (A_eq0 V c 0) (after0_0 V c) t d
theorem before0_1 (c : Dev nD) (t : Fin cfg0.N) (d) : (dat0 V c).before 1 t d = qblk V c 1 t :=
  qbefore1_of V (dat0 V c) (A_eq0 V c 1) (after0_1 V c) t d

/-! ## The body obligation -/

def qgPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

def qgPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the closed forms select the case; the invariant hands the body the accumulator at what
    the point before left (at anything where the case zeroes it) and takes it back at this point's running sum. -/
theorem qgBody (c : Dev nD) (t : Fin cfg0.N) :
    qgPre V c t ⊢ wp frame (wpE (defs₀ (F := F)) Variants.none c none) Set.univ (bodyAt0 t) (fun _ => qgPost V c t) := by
  unfold qgPre qgPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  by_cases h0 : t.val % 8 = 0
  · by_cases h1 : t.val % 8 = 7
    · exfalso; omega
    · have hc0 : isFirst (grid0.coords t) := (isFirst_iff t).mpr h0
      have hc1 : ¬isLast (grid0.coords t) := fun h => h1 ((isLast_iff t).mp h)
      rw [Dat.leavesExact_idle (dat0 V c) 3 t (idle3 t hc1) (noFlush3 t hc1)]
      by_cases hz : t.val = 0
      ·
        rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) hc0 hc1 (qblk V c 0 t) (qblk V c 1 t)).2.2 _ Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (firstS_cover c (grid0.coords t) (ms0 t) (hs0 t) (ms1 t) (hs1 t) (ms2 t) (hs2 t) (ms3 t) (hs3 t) accM (Memref.isWhole_whole _) hc0 hc1 (qblk V c 0 t) (qblk V c 1 t))).trans ((firstS_eq c (grid0.coords t) (ms0 t) (hs0 t) (ms1 t) (hs1 t) (ms2 t) (hs2 t) (ms3 t) (hs3 t) accM (Memref.isWhole_whole _) hc0 hc1 (qblk V c 0 t) (qblk V c 1 t)).trans (accAt_first V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (firstQ_cover c (grid0.coords t) (ms0 t) (hs0 t) (ms1 t) (hs1 t) (ms2 t) (hs2 t) (ms3 t) (hs3 t) accM (Memref.isWhole_whole _) hc0 hc1 (qblk V c 0 t) (qblk V c 1 t))).trans (firstQ_eq c (grid0.coords t) (ms0 t) (hs0 t) (ms1 t) (hs1 t) (ms2 t) (hs2 t) (ms3 t) (hs3 t) accM (Memref.isWhole_whole _) hc0 hc1 (qblk V c 0 t) (qblk V c 1 t))
        iexists _; iexact H3
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) hc0 hc1 (qblk V c 0 t) (qblk V c 1 t)).2.2 _ Set.univ _)
        isplitl [H0]; · iexact H0
        isplitl [H1]; · iexact H1
        isplitl [H2]; · iexists _; iexact H2
        isplitl [H3]; · iexact H3
        isplitl [HS]; · iexists _; iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (firstS_cover c (grid0.coords t) (ms0 t) (hs0 t) (ms1 t) (hs1 t) (ms2 t) (hs2 t) (ms3 t) (hs3 t) accM (Memref.isWhole_whole _) hc0 hc1 (qblk V c 0 t) (qblk V c 1 t))).trans ((firstS_eq c (grid0.coords t) (ms0 t) (hs0 t) (ms1 t) (hs1 t) (ms2 t) (hs2 t) (ms3 t) (hs3 t) accM (Memref.isWhole_whole _) hc0 hc1 (qblk V c 0 t) (qblk V c 1 t)).trans (accAt_first V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (firstQ_cover c (grid0.coords t) (ms0 t) (hs0 t) (ms1 t) (hs1 t) (ms2 t) (hs2 t) (ms3 t) (hs3 t) accM (Memref.isWhole_whole _) hc0 hc1 (qblk V c 0 t) (qblk V c 1 t))).trans (firstQ_eq c (grid0.coords t) (ms0 t) (hs0 t) (ms1 t) (hs1 t) (ms2 t) (hs2 t) (ms3 t) (hs3 t) accM (Memref.isWhole_whole _) hc0 hc1 (qblk V c 0 t) (qblk V c 1 t))
        iexists _; iexact H3
  · have hz : t.val ≠ 0 := fun e => h0 (by rw [e])
    have hc0 : ¬isFirst (grid0.coords t) := fun h => h0 ((isFirst_iff t).mp h)
    by_cases h1 : t.val % 8 = 7
    · have hc1 : isLast (grid0.coords t) := (isLast_iff t).mpr h1
      rw [show (dat0 V c).leavesExact 3 t = owns (c : Thread nD τ) (ms3 t) fullShare ((dat0 V c).after 3 t) from by
        unfold Dat.leavesExact; rw [live3 t hc1], after0_3]
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).2.2.2 Set.univ _)
        isplitl [H0]; · iexact H0
        isplitl [H1]; · iexact H1
        isplitl [H2]; · iexists _; iexact H2
        isplitl [H3]; · iexists _; iexact H3
        isplitl [HS]; · iexact HS
        iintro ⟨H0, H1, ⟨%e2, H2⟩, ⟨%e3, H3⟩, ⟨%es, HS⟩⟩
        isplitl [HS Hoth Hg]
        · isplitl [HS Hoth]
          · isplitl [HS]
            · unfold owns; iexists _; isplitr
              swap; · iexact HS
              ipureintro; exact (View.read_writes_eq_canon _ _ _ (lastS_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((lastS_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (accAt_next V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (lastQ_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans (lastQ_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))
        unfold owns; iexists _; isplitr
        swap; · iexact H3
        ipureintro; exact (View.read_writes_eq_canon _ _ _ (lastG_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((lastG_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (congrArg k0_pay5 (accAt_next V c t h0).symm))
    · have hc1 : ¬isLast (grid0.coords t) := fun h => h1 ((isLast_iff t).mp h)
      rw [Dat.leavesExact_idle (dat0 V c) 3 t (idle3 t hc1) (noFlush3 t hc1)]
      ·
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).2.2 _ Set.univ _)
        isplitl [H0]; · iexact H0
        isplitl [H1]; · iexact H1
        isplitl [H2]; · iexists _; iexact H2
        isplitl [H3]; · iexact H3
        isplitl [HS]; · iexact HS
        iintro ⟨H0, H1, ⟨%e2, H2⟩, H3, ⟨%es, HS⟩⟩
        isplitl [HS Hoth Hg]
        · isplitl [HS Hoth]
          · isplitl [HS]
            · unfold owns; iexists _; isplitr
              swap; · iexact HS
              ipureintro; exact (View.read_writes_eq_canon _ _ _ (midS_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans ((midS_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt))).trans (accAt_next V c t h0).symm)
            iexact Hoth
          iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (midQ_cover c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))).trans (midQ_eq c (grid0.coords t) (ms0 t) (hs0 t) (ms1 t) (hs1 t) (ms2 t) (hs2 t) (ms3 t) (hs3 t) accM (Memref.isWhole_whole _) hc0 hc1 (qblk V c 0 t) (qblk V c 1 t) (accAt V c (t.val - 1) (Nat.lt_of_le_of_lt (Nat.sub_le _ _) t.isLt)))
        iexists _; iexact H3

theorem qgObligation (c : Dev nD) : BodyObligation (dat0 (F := F) V c) (defs₀ (F := F)) Variants.none () Set.univ := fun t => by
  rw [bigSep_W0, bigSep_W0]
  exact qgBody V c t

/-! ## The invariant's two ends -/

theorem qgIn (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem qgOut (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, Hoth⟩, Hg⟩
  isplitl [HS Hoth]
  · isplitl [HS]
    · iexists _; iexact HS
    iexact Hoth
  iexact Hg

end Cert.KernelIdeal.Lin

end
-- ==== Proof.Ideal.AvBody.lean ====
/-
  The second pallas_call (grid 2 × 8): at tile n of batch b the body multiplies the tile's rows of Q by the
  Gram matrix of batch b and stores the product as the tile's rows of the result. One control case, no scratch:
  the output's staging buffer after the body is one whole-block store of the payload of the two input blocks.
  Stated at a parameter V, the buffer contents when the region is entered.
-/
import proofs.«138249_j26345329393767_1_alg».proof.Proof.Gen.KernelIdeal.Launch
import proofs.«138249_j26345329393767_1_alg».proof.Proof.Gen.KernelIdeal.Skeleton
import proofs.«138249_j26345329393767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

abbrev rTile : Rect S1x512x1024 := Rect.unit (s := S1x512x1024) ![0, 0, 0] S1x512x1024.size inb_S1x512x1024_S1x512x1024_0_0_0
abbrev rGram : Rect S1x1024x1024 := Rect.unit (s := S1x1024x1024) ![0, 0, 0] S1x1024x1024.size inb_S1x1024x1024_S1x1024x1024_0_0_0

/-- The result window's staging buffer after the body: its one store, of the product of the two input blocks. -/
def avOut (x0 : Vec F S1x512x1024 .f32) (x1 : Vec F S1x1024x1024 .f32) : Vec F S1x512x1024 .f32 :=
  View.canon [⟨rTile, k1_pay1 (View.ld x0 rTile) (View.ld x1 rGram)⟩]

theorem avCover (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

set_option maxHeartbeats 2000000 in
/-- The body on whole staging memrefs: inputs kept, the output at `avOut` of the inputs. -/
theorem avSound (c : Dev nD) (E : Set ℕ) (i : grid1.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole)
    (x0 : Vec F S1x512x1024 .f32) (x1 : Vec F S1x1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (avOut x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (avCover _)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => avOut (ablk V c 0 t) (ablk V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = ablk V c 0 t := by dsimp only [dat1]
theorem after1_1 (c : Dev nD) (t : Fin cfg1.N) : (dat1 V c).after 1 t = ablk V c 1 t := by dsimp only [dat1]
theorem after1_2 (c : Dev nD) (t : Fin cfg1.N) : (dat1 V c).after 2 t = avOut (ablk V c 0 t) (ablk V c 1 t) := by dsimp only [dat1]
theorem before1_0 (c : Dev nD) (t : Fin cfg1.N) (d) : (dat1 V c).before 0 t d = ablk V c 0 t :=
  abefore0_of V (dat1 V c) (A_eq1 V c 0) (after1_0 V c) t d
theorem before1_1 (c : Dev nD) (t : Fin cfg1.N) (d) : (dat1 V c).before 1 t d = ablk V c 1 t :=
  abefore1_of V (dat1 V c) (A_eq1 V c 1) (after1_1 V c) t d

def avPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def avPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem avBody (c : Dev nD) (t : Fin cfg1.N) :
    avPre V c t ⊢ wp frame (wpE (defs₀ (F := F)) Variants.none c none) Set.univ (bodyAt1 t) (fun _ => avPost V c t) := by
  unfold avPre avPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (avSound c Set.univ _ _ _ _ _ _ _ (ablk V c 0 t) (ablk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem avObligation (c : Dev nD) : BodyObligation (dat1 (F := F) V c) (defs₀ (F := F)) Variants.none () Set.univ := fun t => by
  rw [bigSep_W1, bigSep_W1]
  exact avBody V c t

end Cert.KernelIdeal.Lin

end
-- ==== Proof.Ideal.Run.lean ====
/-
  The whole program as three segments — the host transpose of the weights, the first pallas_call, the second — and
  its run. The buffer contents at each segment boundary are a fold from the launch memory: after the transpose; then
  the first region's arrays at what its write-backs leave (Q and the Gram matrices), every other buffer as entered;
  then the same for the second region (the result). Every weakly fair execution terminates and every unscoped
  buffer ends at the last fold; the two arguments walk back through the fold to their launch contents.
-/
import proofs.«138249_j26345329393767_1_alg».proof.Proof.Ideal.QgData
import proofs.«138249_j26345329393767_1_alg».proof.Proof.Ideal.AvBody

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the transpose: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The activations: no array of the second region; an input window of the first; not written by the transpose. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
/-- The weights: an array of neither region; not written by the transpose (which writes its own result). -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
/-- The result is the second region's third array at what its write-backs leave. -/
theorem W3_main_v2 (c : Dev nD) : W3 m ρ c (Proc.devRef .tc main_v2) = (dat1 (V2 m ρ) c).arrAt 2 cfg1.N :=
  W3_arr m ρ c 2

/-! ## The proof data family and the thread state -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem transposeFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call as a segment: entered with every unscoped buffer at `W1`, left with them at `W2`; its
    arrays are split out of the unscoped buffers at entry and put back at their final contents at exit; the generator
    register goes into the region invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qgObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (qgIn (V1 m ρ) c)
    unfold Pipeline.ΦA
    iintro ⟨Hp, -, Hr⟩
    isplitl [Hr]; · iexact Hr
    iexact Hp
  hout c := by
    rw [Pipeline.ownSems0_none]
    refine (qgOut (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered with every unscoped buffer at `W2`, left with them at `W3`; its
    arrays are split out of the unscoped buffers at entry and put back at their final contents at exit; the generator
    register goes into the region invariant and comes back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (avObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg hostOps0 hostOps0_sub transposeFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer ends at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Lin

end
-- ==== Proof.Ideal.Payloads.lean ====
/-
  The bodies' arithmetic read at an index, over the extended reals. A change of float format is the identity and
  a matrix product into a zero accumulator is the plain sum, so: the Q tile at (r, e) is Σ_d x(r, d) · w(d, e); the
  accumulator's update at (e, d') is the old entry plus Σ_r x(r, e) · x(r, d'); the copy-out and the zero fill are
  what they say; and the second kernel's tile at (r, d') is Σ_e q(r, e) · g(e, d').
-/
import proofs.«138249_j26345329393767_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Lin

open Idealize.ShloMosaic Idealize.ShloMosaic.ValueIdx
open Cert.KernelIdeal Cert.KernelIdeal.Gen

/-- Rows times columns: the left operand's second axis against the right operand's first. -/
abbrev rowDot := dot_S512x1024_S1024x1024_S512x1024_1_0_0_1_n_n
/-- Columns times columns: both operands' first axis contracted (the Gram product of a tile). -/
abbrev gramDot := dot_S512x1024_S512x1024_S1024x1024_0_0_1_1_n_n

theorem rowDot_l0 (j : S512x1024.Idx) (q : rowDot.contr.Idx) : (rowDot.lhsIdx j q 0).val = (j 0).val := by
  unfold DotDims.lhsIdx
  rw [dif_neg (show ¬(0 : Fin S512x1024.rank) ∈ rowDot.lhsBatch by decide), dif_pos (show (0 : Fin S512x1024.rank) ∈ rowDot.lhsNonContracting by decide)]
  rfl
theorem rowDot_r1 (j : S512x1024.Idx) (q : rowDot.contr.Idx) : (rowDot.rhsIdx j q 1).val = (j 1).val := by
  unfold DotDims.rhsIdx
  rw [dif_neg (show ¬(1 : Fin S1024x1024.rank) ∈ rowDot.rhsBatch by decide), dif_pos (show (1 : Fin S1024x1024.rank) ∈ rowDot.rhsNonContracting by decide)]
  rfl
theorem gramDot_l1 (j : S1024x1024.Idx) (q : gramDot.contr.Idx) : (gramDot.lhsIdx j q 1).val = (j 0).val := by
  unfold DotDims.lhsIdx
  rw [dif_neg (show ¬(1 : Fin S512x1024.rank) ∈ gramDot.lhsBatch by decide), dif_pos (show (1 : Fin S512x1024.rank) ∈ gramDot.lhsNonContracting by decide)]
  rfl
theorem gramDot_r1 (j : S1024x1024.Idx) (q : gramDot.contr.Idx) : (gramDot.rhsIdx j q 1).val = (j 1).val := by
  unfold DotDims.rhsIdx
  rw [dif_neg (show ¬(1 : Fin S512x1024.rank) ∈ gramDot.rhsBatch by decide), dif_pos (show (1 : Fin S512x1024.rank) ∈ gramDot.rhsNonContracting by decide)]
  rfl

/-- A [512, 1024] by [1024, 1024] product into zero, at (a, b): the sum over the shared axis. -/
theorem rowDot_apply {φ₁ φ₂ : FTy} (l : FVec Ideal S512x1024 φ₁) (r : FVec Ideal S1024x1024 φ₂) (a : Fin 512) (b : Fin 1024) :
    FloatOps.matmul rowDot none l r (constant (F := Ideal) S512x1024 .f32 0x00000000#32) (ix2 a b)
      = ∑ k : Fin 1024, l (ix2 a k) * r (ix2 k b) := by
  rw [Ideal.matmul_constant_zero_apply, ← Equiv.sum_comp (contrEquiv1 rowDot 1024 rfl rfl).symm]
  refine Finset.sum_congr rfl fun k _ => ?_
  have hk := contrEquiv1_symm_val rowDot 1024 rfl rfl k
  have el : rowDot.lhsIdx (ix2 a b) ((contrEquiv1 rowDot 1024 rfl rfl).symm k) = ix2 a k := funext fun x => Fin.ext (by
    match x with
    | ⟨0, _⟩ => exact rowDot_l0 _ _
    | ⟨1, _⟩ => exact (rowDot.lhsIdx_val_of_single rfl _ _).trans hk)
  have er : rowDot.rhsIdx (ix2 a b) ((contrEquiv1 rowDot 1024 rfl rfl).symm k) = ix2 k b := funext fun x => Fin.ext (by
    match x with
    | ⟨0, _⟩ => exact (rowDot.rhsIdx_val_of_single rfl _ _).trans hk
    | ⟨1, _⟩ => exact rowDot_r1 _ _)
  rw [el, er]

/-- The Gram product of a [512, 1024] tile with itself into zero, at (a, b): the sum over the tile's rows. -/
theorem gramDot_apply {φ₁ φ₂ : FTy} (l : FVec Ideal S512x1024 φ₁) (r : FVec Ideal S512x1024 φ₂) (a b : Fin 1024) :
    FloatOps.matmul gramDot none l r (constant (F := Ideal) S1024x1024 .f32 0x00000000#32) (ix2 a b)
      = ∑ k : Fin 512, l (ix2 k a) * r (ix2 k b) := by
  rw [Ideal.matmul_constant_zero_apply, ← Equiv.sum_comp (contrEquiv1 gramDot 512 rfl rfl).symm]
  refine Finset.sum_congr rfl fun k _ => ?_
  have hk := contrEquiv1_symm_val gramDot 512 rfl rfl k
  have el : gramDot.lhsIdx (ix2 a b) ((contrEquiv1 gramDot 512 rfl rfl).symm k) = ix2 k a := funext fun x => Fin.ext (by
    match x with
    | ⟨0, _⟩ => exact (gramDot.lhsIdx_val_of_single rfl _ _).trans hk
    | ⟨1, _⟩ => exact gramDot_l1 _ _)
  have er : gramDot.rhsIdx (ix2 a b) ((contrEquiv1 gramDot 512 rfl rfl).symm k) = ix2 k b := funext fun x => Fin.ext (by
    match x with
    | ⟨0, _⟩ => exact (gramDot.rhsIdx_val_of_single rfl _ _).trans hk
    | ⟨1, _⟩ => exact gramDot_r1 _ _)
  rw [el, er]

/-- A tile with its leading unit axis dropped and its format changed, at (r, d). -/
theorem tile_apply (x : Vec Ideal S1x512x1024 .f32) (r : Fin 512) (d : Fin 1024) :
    k0_pay2 (F := Ideal) x (ix2 r d) = x (ix3 (0 : Fin 1) r d) := by
  unfold k0_pay2
  exact shapeCast_1ab_ab_apply x _ r d

/-- The zero fill. -/
theorem zeroFill_apply (i : S1024x1024.Idx) : k0_pay1 (F := Ideal) i = 0 := by
  unfold k0_pay1
  rw [shapeCast_self]
  exact Ideal.ofBits_zero_f32

/-- The Q tile at (r, e). -/
theorem qTile_apply (x : Vec Ideal S1x512x1024 .f32) (w : Vec Ideal S1024x1024 .f32) (u : Fin 1) (r : Fin 512) (e : Fin 1024) :
    k0_pay3 (F := Ideal) x w (ix3 u r e) = ∑ d : Fin 1024, x (ix3 (0 : Fin 1) r d) * w (ix2 d e) := by
  unfold k0_pay3
  refine (shapeCast_ab_1ab_apply _ _ u r e).trans ?_
  refine (rowDot_apply _ _ r e).trans ?_
  refine Finset.sum_congr rfl fun d _ => ?_
  rw [tile_apply, shapeCast_self]
  rfl

/-- The accumulator's update at (e, d'). -/
theorem accStep_apply (x : Vec Ideal S1x512x1024 .f32) (s : Vec Ideal S1024x1024 .f32) (e d' : Fin 1024) :
    k0_pay4 (F := Ideal) x s (ix2 e d') = s (ix2 e d') + ∑ r : Fin 512, x (ix3 (0 : Fin 1) r e) * x (ix3 (0 : Fin 1) r d') := by
  unfold k0_pay4
  rw [shapeCast_self]
  show s (ix2 e d') + FloatOps.matmul gramDot none (k0_pay2 x) (k0_pay2 x) (constant (F := Ideal) S1024x1024 .f32 0x00000000#32) (ix2 e d') = _
  rw [gramDot_apply]
  refine congrArg (s (ix2 e d') + ·) (Finset.sum_congr rfl fun r _ => ?_)
  rw [tile_apply, tile_apply]

/-- The copy-out at (e, d'). -/
theorem copyOut_apply (s : Vec Ideal S1024x1024 .f32) (u : Fin 1) (e d' : Fin 1024) :
    k0_pay5 (F := Ideal) s (ix3 u e d') = s (ix2 e d') := by
  unfold k0_pay5
  exact shapeCast_ab_1ab_apply _ _ u e d'

/-- The second kernel's tile at (r, d'). -/
theorem avTile_apply (q : Vec Ideal S1x512x1024 .f32) (g : Vec Ideal S1x1024x1024 .f32) (u : Fin 1) (r : Fin 512) (d' : Fin 1024) :
    k1_pay1 (F := Ideal) q g (ix3 u r d') = ∑ e : Fin 1024, q (ix3 (0 : Fin 1) r e) * g (ix3 (0 : Fin 1) e d') := by
  unfold k1_pay1
  refine (shapeCast_ab_1ab_apply _ _ u r d').trans ?_
  refine (rowDot_apply _ _ r d').trans ?_
  refine Finset.sum_congr rfl fun e _ => ?_
  show shapeCast S512x1024 q _ (ix2 r e) * shapeCast S1024x1024 g _ (ix2 e d') = _
  rw [shapeCast_1ab_ab_apply, shapeCast_1ab_ab_apply]

end Cert.KernelIdeal.Lin

end
-- ==== Proof.Ideal.Algebra.lean ====
/-
  The two laws that join the kernel's arrangement to the reference's.
  Regrouping: a sum over 4096 rows is the sum over 8 tiles of the sums over each tile's 512 rows — true in any
  commutative monoid, so in the extended reals with no finiteness.
  Associativity of the triple product: Σ_e q(e) · (Σ_m a(m, e) · c(m)) = Σ_m (Σ_e q(e) · a(m, e)) · c(m). This moves a
  factor across a sum, which fails at infinities, so it is stated for entries that are real numbers and proved over
  the reals, the coercion pushed out of products and finite sums.
-/
import Idealize.ShloMosaic.PureOps.Ideal

noncomputable section

namespace Cert.KernelIdeal.Lin

open Finset

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product, entrywise, at real entries. -/
theorem assoc_real {E M : Type*} [Fintype E] [Fintype M] (q : E → ℝ) (a : M → E → ℝ) (c : M → ℝ) :
    ∑ e, q e * ∑ m, a m e * c m = ∑ m, (∑ e, q e * a m e) * c m := by
  simp only [Finset.mul_sum, Finset.sum_mul]
  rw [Finset.sum_comm]
  exact Finset.sum_congr rfl fun m _ => Finset.sum_congr rfl fun e _ => by ring

/-- The same in the extended reals, at entries that are real numbers. -/
theorem assoc_finite {E M : Type*} [Fintype E] [Fintype M] (q : E → ℝ) (a : M → E → ℝ) (c : M → ℝ) :
    ∑ e, (q e : EReal) * ∑ m, (a m e : EReal) * (c m : EReal)
      = ∑ m, (∑ e, (q e : EReal) * (a m e : EReal)) * (c m : EReal) := by
  have hl : ∑ e, (q e : EReal) * ∑ m, (a m e : EReal) * (c m : EReal) = ((∑ e, q e * ∑ m, a m e * c m : ℝ) : EReal) := by
    rw [coe_sum]
    refine Finset.sum_congr rfl fun e _ => ?_
    rw [EReal.coe_mul, coe_sum]
    refine congrArg ((q e : EReal) * ·) (Finset.sum_congr rfl fun m _ => ?_)
    rw [EReal.coe_mul]
  have hr : ∑ m, (∑ e, (q e : EReal) * (a m e : EReal)) * (c m : EReal) = ((∑ m, (∑ e, q e * a m e) * c m : ℝ) : EReal) := by
    rw [coe_sum]
    refine Finset.sum_congr rfl fun m _ => ?_
    rw [EReal.coe_mul, coe_sum]
    refine congrArg (· * (c m : EReal)) (Finset.sum_congr rfl fun e _ => ?_)
    rw [EReal.coe_mul]
  rw [hl, hr, assoc_real]

/-- A product of two finite sums of products of reals is the coercion of a real. -/
theorem coe_sum_mul {ι : Type*} [Fintype ι] (f g : ι → ℝ) :
    ∑ i, (f i : EReal) * (g i : EReal) = ((∑ i, f i * g i : ℝ) : EReal) := by
  rw [coe_sum]; exact Finset.sum_congr rfl fun i _ => (EReal.coe_mul _ _).symm

/-- 4096 rows as 8 tiles of 512. -/
theorem sum_tiles {M : Type*} [AddCommMonoid M] (f : Fin 4096 → M) :
    ∑ n : Fin 8, ∑ r : Fin 512, f ⟨n.val * 512 + r.val, by have := n.isLt; have := r.isLt; omega⟩ = ∑ m : Fin 4096, f m := by
  rw [← Fintype.sum_prod_type (f := fun p : Fin 8 × Fin 512 => f ⟨p.1.val * 512 + p.2.val, by have := p.1.isLt; have := p.2.isLt; omega⟩)]
  refine Fintype.sum_equiv (finProdFinEquiv (m := 8) (n := 512)) _ f fun p => ?_
  refine congrArg f (Fin.ext ?_)
  show p.1.val * 512 + p.2.val = p.2.val + 512 * p.1.val
  omega

end Cert.KernelIdeal.Lin

end
-- ==== Proof.Ideal.QgValue.lean ====
/-
  The first pallas_call's two result arrays as whole-array functions of its operands, over the extended reals.
  Q: point t = 8·b + n writes rows 512·n … 512·n + 511 of batch b, each entry Σ_d X(b, row, d) · Wᵀ(d, e); the
  blocks of the 16 points tile the array. The Gram array: block b is written once, at point 8·b + 7, with the
  accumulator, which after tile n of the batch holds the sum of the first n + 1 tiles' XₜᵀXₜ (by induction on n,
  starting from the zero fill); eight tiles of 512 rows regroup into one sum over the batch's 4096 rows.
-/
import proofs.«138249_j26345329393767_1_alg».proof.Proof.Ideal.QgData
import proofs.«138249_j26345329393767_1_alg».proof.Proof.Ideal.Payloads
import proofs.«138249_j26345329393767_1_alg».proof.Proof.Ideal.Algebra

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The printed index maps over the grid -/

theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-! ## The operand blocks read at an index -/

/-- Row m of batch b at column e; zero past the array (never consulted there). -/
def xAt (X : (⟨S2x4096x1024, .f32⟩ : BufTy).Contents (Elt Ideal)) (b : Fin 2) (m : ℕ) (e : Fin 1024) : EReal :=
  if h : m < 4096 then X (ix3 b ⟨m, h⟩ e) else 0
theorem xAt_lt (X : (⟨S2x4096x1024, .f32⟩ : BufTy).Contents (Elt Ideal)) (b : Fin 2) (m : ℕ) (e : Fin 1024) (h : m < 4096) :
    xAt X b m e = X (ix3 b ⟨m, h⟩ e) := dif_pos h

/-- The X tile of point 8·b + n at (r, d) is row 512·n + r of batch b. -/
theorem xTile_read (c : Dev nD) (t : Fin cfg0.N) (b : Fin 2) (n : Fin 8) (ht : t.val = b.val * 8 + n.val) (r : Fin 512) (d : Fin 1024) :
    qblk V c 0 t (ix3 (0 : Fin 1) r d) = xAt (V c main_arg0) b (n.val * 512 + r.val) d := by
  have hb := b.isLt; have hn := n.isLt; have hr := r.isLt
  rw [xAt_lt _ _ _ _ (by omega)]
  obtain ⟨e0, e1, e2, -⟩ := idx0 t
  show V c main_arg0 (((cfg0.win 0).blk t).view.emb (ix3 (0 : Fin 1) r d)) = _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = n.val * 512 + r.val; omega
  | ⟨2, _⟩ => show win0_0.index t (2 : Fin 3) * 1024 + 1 * d.val = d.val; omega

/-- The weights window is the whole transposed matrix at every point. -/
theorem wTile_read (c : Dev nD) (t : Fin cfg0.N) (d e : Fin 1024) :
    qblk V c 1 t (ix2 d e) = V c main_v0 (ix2 d e) := by
  obtain ⟨-, -, -, e3, e4, -⟩ := idx0 t
  show V c main_v0 (((cfg0.win 1).blk t).view.emb (ix2 d e)) = _
  refine congrArg (V c main_v0) (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

/-! ## Q -/

/-- Q = X · Wᵀ, entry by entry (Wt is the transposed weights as the region finds them). -/
def Qarr (X : (⟨S2x4096x1024, .f32⟩ : BufTy).Contents (Elt Ideal)) (Wt : (⟨S1024x1024, .f32⟩ : BufTy).Contents (Elt Ideal)) : (⟨S2x4096x1024, .f32⟩ : BufTy).Contents (Elt Ideal) :=
  fun i => ∑ d : Fin 1024, X (ix3 (n0 := 2) (n1 := 4096) (i 0) (i 1) d) * Wt (ix2 (n1 := 1024) d (i 2))

theorem qFlushed_at (c : Dev nD) (t : Fin cfg0.N) (u : Fin 1) (r : Fin 512) (e : Fin 1024) :
    k0_pay3 (F := Ideal) (qblk V c 0 t) (qblk V c 1 t) (ix3 u r e)
      = Qarr (V c main_arg0) (V c main_v0) (((cfg0.win 2).blk t).view.emb (ix3 u r e)) := by
  have hN : t.val < 16 := lt_of_lt_of_eq t.isLt (show cfg0.N = 16 from N_0)
  have hr := r.isLt; have hu := u.isLt
  obtain ⟨-, -, -, -, -, e5, e6, e7, -⟩ := idx0 t
  rw [qTile_apply]
  unfold Qarr
  refine Finset.sum_congr rfl fun d _ => ?_
  rw [xTile_read V c t ⟨t.val / 8, by omega⟩ ⟨t.val % 8, by omega⟩ (by show t.val = t.val / 8 * 8 + t.val % 8; omega) r d, wTile_read V c t d e,
    xAt_lt _ _ _ _ (by show t.val % 8 * 512 + r.val < 4096; omega)]
  refine congrArg₂ (· * ·) ?_ ?_
  · refine congrArg (V c main_arg0) (funext fun a => Fin.ext ?_)
    match a with
    | ⟨0, _⟩ => show t.val / 8 = win0_2.index t (0 : Fin 3) * 1 + 1 * u.val; omega
    | ⟨1, _⟩ => show t.val % 8 * 512 + r.val = win0_2.index t (1 : Fin 3) * 512 + 1 * r.val; omega
    | ⟨2, _⟩ => rfl
  · refine congrArg (V c main_v0) (funext fun a => Fin.ext ?_)
    match a with
    | ⟨0, _⟩ => rfl
    | ⟨1, _⟩ => show e.val = win0_2.index t (2 : Fin 3) * 1024 + 1 * e.val; omega

/-- What point t writes back into Q is block t of `Qarr`. -/
theorem qFlushed (c : Dev nD) (t : Fin cfg0.N) :
    (dat0 V c).flushed 2 t = ((cfg0.win 2).blk t).view.read (Elt Ideal) (Qarr (V c main_arg0) (V c main_v0)) := by
  show (cfg0.win 2).cut (grid0.coords t) ((dat0 V c).after 2 t) = _
  rw [after0_2]
  exact funext fun j => (congrArg _ (eq_ix3 j)).trans ((qFlushed_at V c t (j 0) (j 1) (j 2)).trans (congrArg _ (congrArg _ (eq_ix3 j).symm)))

theorem mem_blkQ (t : Fin cfg0.N) (i : S2x4096x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v1_0).slice (win0_2.rect t)).set ↔ _
  rw [View.set_slice_whole, Rect.mem_set_unit]
  exact Iff.rfl

/-- Row i₁ of batch i₀ lies in the block of point 8·i₀ + i₁ / 512. -/
theorem coverQ (i : S2x4096x1024.Idx) : ∃ t : Fin cfg0.N, (cfg0.win 2).flush t = true ∧ i ∈ ((cfg0.win 2).blk t).view.set := by
  have h0 : (i 0).val < 2 := (i 0).isLt
  have h1 : (i 1).val < 4096 := (i 1).isLt
  have h2 : (i 2).val < 1024 := (i 2).isLt
  have hN : cfg0.N = 16 := N_0
  refine ⟨⟨(i 0).val * 8 + (i 1).val / 512, by omega⟩, flush0_2 _, ?_⟩
  rw [mem_blkQ]
  obtain ⟨-, -, -, -, -, e5, e6, e7, -⟩ := idx0 ⟨(i 0).val * 8 + (i 1).val / 512, by omega⟩
  intro a
  match a with
  | ⟨0, _⟩ => show win0_2.index _ (0 : Fin 3) * 1 ≤ (i 0).val ∧ (i 0).val < win0_2.index _ (0 : Fin 3) * 1 + 1; dsimp only at e5; omega
  | ⟨1, _⟩ => show win0_2.index _ (1 : Fin 3) * 512 ≤ (i 1).val ∧ (i 1).val < win0_2.index _ (1 : Fin 3) * 512 + 512; dsimp only at e6; omega
  | ⟨2, _⟩ => show win0_2.index _ (2 : Fin 3) * 1024 ≤ (i 2).val ∧ (i 2).val < win0_2.index _ (2 : Fin 3) * 1024 + 1024; omega

/-- The Q array after the region. -/
theorem arrQ (c : Dev nD) : (dat0 V c).arrAt 2 cfg0.N = Qarr (V c main_arg0) (V c main_v0) :=
  (dat0 V c).arrAt_eq_of_cover 2 (Qarr (V c main_arg0) (V c main_v0)) (fun t _ => qFlushed V c t) coverQ

/-! ## The Gram array -/

/-- One tile's contribution to the Gram entry (e, d'). -/
def tileGram (X : (⟨S2x4096x1024, .f32⟩ : BufTy).Contents (Elt Ideal)) (b : Fin 2) (j : ℕ) (e d' : Fin 1024) : EReal :=
  ∑ r : Fin 512, xAt X b (j * 512 + r.val) e * xAt X b (j * 512 + r.val) d'

theorem accAt_congr (c : Dev nD) {n n' : ℕ} (h : n < cfg0.N) (h' : n' < cfg0.N) (e : n = n') : accAt V c n h = accAt V c n' h' := by
  subst e; rfl

/-- After tile n of batch b the accumulator holds the first n + 1 tiles' contributions. -/
theorem accAt_eq (c : Dev nD) (b : Fin 2) (e d' : Fin 1024) : ∀ (n : ℕ) (hn : n < 8) (h : b.val * 8 + n < cfg0.N),
    accAt V c (b.val * 8 + n) h (ix2 e d') = ∑ j ∈ Finset.range (n + 1), tileGram (V c main_arg0) b j e d'
  | 0, hn, h => by
    have h8 : (⟨b.val * 8 + 0, h⟩ : Fin cfg0.N).val % 8 = 0 := by dsimp only; omega
    rw [accAt_first V c ⟨b.val * 8 + 0, h⟩ h8, accStep_apply, zeroFill_apply, zero_add, Finset.sum_range_one]
    unfold tileGram
    refine Finset.sum_congr rfl fun r _ => ?_
    rw [xTile_read V c ⟨b.val * 8 + 0, h⟩ b ⟨0, by omega⟩ rfl r e, xTile_read V c ⟨b.val * 8 + 0, h⟩ b ⟨0, by omega⟩ rfl r d']
  | n + 1, hn, h => by
    have h8 : ¬(⟨b.val * 8 + (n + 1), h⟩ : Fin cfg0.N).val % 8 = 0 := by dsimp only; omega
    have hlt : b.val * 8 + n < cfg0.N := Nat.lt_of_succ_lt h
    rw [accAt_next V c ⟨b.val * 8 + (n + 1), h⟩ h8, accStep_apply,
      accAt_congr V c _ hlt (show (⟨b.val * 8 + (n + 1), h⟩ : Fin cfg0.N).val - 1 = b.val * 8 + n from by dsimp only; omega),
      accAt_eq c b e d' n (by omega) hlt, Finset.sum_range_succ _ (n + 1)]
    refine congrArg (_ + ·) ?_
    unfold tileGram
    refine Finset.sum_congr rfl fun r _ => ?_
    rw [xTile_read V c ⟨b.val * 8 + (n + 1), h⟩ b ⟨n + 1, hn⟩ rfl r e, xTile_read V c ⟨b.val * 8 + (n + 1), h⟩ b ⟨n + 1, hn⟩ rfl r d']

/-- The Gram matrix of batch b: XᵦᵀXᵦ, entry by entry. -/
def Garr (X : (⟨S2x4096x1024, .f32⟩ : BufTy).Contents (Elt Ideal)) : (⟨S2x1024x1024, .f32⟩ : BufTy).Contents (Elt Ideal) :=
  fun i => ∑ m : Fin 4096, X (ix3 (n0 := 2) (n2 := 1024) (i 0) m (i 1)) * X (ix3 (n0 := 2) (n2 := 1024) (i 0) m (i 2))

/-- Eight tiles of 512 rows are the batch's 4096 rows. -/
theorem tiles_eq (X : (⟨S2x4096x1024, .f32⟩ : BufTy).Contents (Elt Ideal)) (b : Fin 2) (e d' : Fin 1024) :
    ∑ j ∈ Finset.range 8, tileGram X b j e d' = ∑ m : Fin 4096, X (ix3 b m e) * X (ix3 b m d') := by
  rw [Finset.sum_range, ← sum_tiles (fun m : Fin 4096 => X (ix3 b m e) * X (ix3 b m d'))]
  refine Finset.sum_congr rfl fun n _ => ?_
  unfold tileGram
  refine Finset.sum_congr rfl fun r _ => ?_
  have hn := n.isLt; have hr := r.isLt
  rw [xAt_lt _ _ _ _ (by omega), xAt_lt _ _ _ _ (by omega)]

theorem gFlushed_at (c : Dev nD) (t : Fin cfg0.N) (h7 : t.val % 8 = 7) (u : Fin 1) (e d' : Fin 1024) :
    k0_pay5 (F := Ideal) (accAt V c t.val t.isLt) (ix3 u e d')
      = Garr (V c main_arg0) (((cfg0.win 3).blk t).view.emb (ix3 u e d')) := by
  have hN : t.val < 16 := lt_of_lt_of_eq t.isLt (show cfg0.N = 16 from N_0)
  have hu := u.isLt
  obtain ⟨-, -, -, -, -, -, -, -, e8, e9, e10⟩ := idx0 t
  obtain ⟨b, hb⟩ : ∃ b : Fin 2, t.val = b.val * 8 + 7 := ⟨⟨t.val / 8, by omega⟩, by dsimp only; omega⟩
  have hlt7 : b.val * 8 + 7 < cfg0.N := hb ▸ t.isLt
  rw [copyOut_apply, accAt_congr V c t.isLt hlt7 hb, accAt_eq V c b e d' 7 (by omega) hlt7, tiles_eq]
  unfold Garr
  refine Finset.sum_congr rfl fun m _ => ?_
  refine congrArg₂ (· * ·) ?_ ?_
  · refine congrArg (V c main_arg0) (funext fun a => Fin.ext ?_)
    match a with
    | ⟨0, _⟩ => show b.val = win0_3.index t (0 : Fin 3) * 1 + 1 * u.val; omega
    | ⟨1, _⟩ => rfl
    | ⟨2, _⟩ => show e.val = win0_3.index t (1 : Fin 3) * 1024 + 1 * e.val; omega
  · refine congrArg (V c main_arg0) (funext fun a => Fin.ext ?_)
    match a with
    | ⟨0, _⟩ => show b.val = win0_3.index t (0 : Fin 3) * 1 + 1 * u.val; omega
    | ⟨1, _⟩ => rfl
    | ⟨2, _⟩ => show d'.val = win0_3.index t (2 : Fin 3) * 1024 + 1 * d'.val; omega

/-- What a batch's last point writes back into the Gram array is block t of `Garr`. -/
theorem gFlushed (c : Dev nD) (t : Fin cfg0.N) (hf : (cfg0.win 3).flush t = true) :
    (dat0 V c).flushed 3 t = ((cfg0.win 3).blk t).view.read (Elt Ideal) (Garr (V c main_arg0)) := by
  have h7 : t.val % 8 = 7 := (flush0_3 t).mp hf
  show (cfg0.win 3).cut (grid0.coords t) ((dat0 V c).after 3 t) = _
  rw [after0_3]
  exact funext fun j => (congrArg _ (eq_ix3 j)).trans ((gFlushed_at V c t h7 (j 0) (j 1) (j 2)).trans (congrArg _ (congrArg _ (eq_ix3 j).symm)))

theorem mem_blkG (t : Fin cfg0.N) (i : S2x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v1_1).slice (win0_3.rect t)).set ↔ _
  rw [View.set_slice_whole, Rect.mem_set_unit]
  exact Iff.rfl

/-- Batch i₀'s Gram block is written at point 8·i₀ + 7. -/
theorem coverG (i : S2x1024x1024.Idx) : ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 1024 := (i 2).isLt
  have hN : cfg0.N = 16 := N_0
  refine ⟨⟨(i 0).val * 8 + 7, by omega⟩, (flush0_3 _).mpr (by dsimp only; omega), ?_⟩
  rw [mem_blkG]
  obtain ⟨-, -, -, -, -, -, -, -, e8, e9, e10⟩ := idx0 ⟨(i 0).val * 8 + 7, by omega⟩
  intro a
  match a with
  | ⟨0, _⟩ => show win0_3.index _ (0 : Fin 3) * 1 ≤ (i 0).val ∧ (i 0).val < win0_3.index _ (0 : Fin 3) * 1 + 1; dsimp only at e8; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 1024 ≤ (i 2).val ∧ (i 2).val < win0_3.index _ (2 : Fin 3) * 1024 + 1024; omega

/-- The Gram array after the region. -/
theorem arrG (c : Dev nD) : (dat0 V c).arrAt 3 cfg0.N = Garr (V c main_arg0) :=
  (dat0 V c).arrAt_eq_of_cover 3 (Garr (V c main_arg0)) (fun t hf => gFlushed V c t hf) coverG

end Cert.KernelIdeal.Lin

end
-- ==== Proof.Ideal.AvValue.lean ====
/-
  The second pallas_call's result array as a whole-array function of its two operands, over the extended reals:
  point t = 8·b + n writes rows 512·n … 512·n + 511 of batch b, each entry Σ_e Q(b, row, e) · G(b, e, d'), where G's
  window at the point is the whole Gram matrix of batch b; the 16 points' blocks tile the array.
-/
import proofs.«138249_j26345329393767_1_alg».proof.Proof.Ideal.AvBody
import proofs.«138249_j26345329393767_1_alg».proof.Proof.Ideal.Payloads

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

theorem avz3 : (![0, 0, 0] : Fin 3 → Nat) = fun _ => 0 := funext fun a => by fin_cases a <;> rfl

theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

/-- Q · G batch by batch, entry by entry. -/
def Oarr (Q : (⟨S2x4096x1024, .f32⟩ : BufTy).Contents (Elt Ideal)) (G : (⟨S2x1024x1024, .f32⟩ : BufTy).Contents (Elt Ideal)) : (⟨S2x4096x1024, .f32⟩ : BufTy).Contents (Elt Ideal) :=
  fun i => ∑ e : Fin 1024, Q (ix3 (n0 := 2) (n1 := 4096) (i 0) (i 1) e) * G (ix3 (n0 := 2) (n2 := 1024) (i 0) e (i 2))

/-- The Q window's block at point t, at (r, e), is Q at the rows the result's block covers. -/
theorem qRead (c : Dev nD) (t : Fin cfg1.N) (u : Fin 1) (r : Fin 512) (e d' : Fin 1024) :
    ablk V c 0 t (ix3 (0 : Fin 1) r e)
      = (V c main_v1_0 : (⟨S2x4096x1024, .f32⟩ : BufTy).Contents (Elt Ideal)) (ix3 (n0 := 2) (n1 := 4096) ((((cfg1.win 2).blk t).view.emb (ix3 u r d')) 0) ((((cfg1.win 2).blk t).view.emb (ix3 u r d')) 1) e) := by
  have hu := u.isLt
  obtain ⟨e0, e1, e2, -, -, -, e6, e7, e8⟩ := idx1 t
  show V c main_v1_0 (((cfg1.win 0).blk t).view.emb (ix3 (0 : Fin 1) r e)) = _
  refine congrArg (V c main_v1_0) (funext fun a => Fin.ext ?_)
  match a with
  | ⟨0, _⟩ => show win1_0.index t (0 : Fin 3) * 1 + 1 * 0 = win1_2.index t (0 : Fin 3) * 1 + 1 * u.val; omega
  | ⟨1, _⟩ => show win1_0.index t (1 : Fin 3) * 512 + 1 * r.val = win1_2.index t (1 : Fin 3) * 512 + 1 * r.val; omega
  | ⟨2, _⟩ => show win1_0.index t (2 : Fin 3) * 1024 + 1 * e.val = e.val; omega

/-- The Gram window's block at point t is the whole Gram matrix of the point's batch. -/
theorem gRead (c : Dev nD) (t : Fin cfg1.N) (u : Fin 1) (r : Fin 512) (e d' : Fin 1024) :
    ablk V c 1 t (ix3 (0 : Fin 1) e d')
      = (V c main_v1_1 : (⟨S2x1024x1024, .f32⟩ : BufTy).Contents (Elt Ideal)) (ix3 (n0 := 2) (n2 := 1024) ((((cfg1.win 2).blk t).view.emb (ix3 u r d')) 0) e ((((cfg1.win 2).blk t).view.emb (ix3 u r d')) 2)) := by
  have hu := u.isLt
  obtain ⟨-, -, -, e3, e4, e5, e6, e7, e8⟩ := idx1 t
  show V c main_v1_1 (((cfg1.win 1).blk t).view.emb (ix3 (0 : Fin 1) e d')) = _
  refine congrArg (V c main_v1_1) (funext fun a => Fin.ext ?_)
  match a with
  | ⟨0, _⟩ => show win1_1.index t (0 : Fin 3) * 1 + 1 * 0 = win1_2.index t (0 : Fin 3) * 1 + 1 * u.val; omega
  | ⟨1, _⟩ => show win1_1.index t (1 : Fin 3) * 1024 + 1 * e.val = e.val; omega
  | ⟨2, _⟩ => show win1_1.index t (2 : Fin 3) * 1024 + 1 * d'.val = win1_2.index t (2 : Fin 3) * 1024 + 1 * d'.val; omega

theorem oFlushed_at (c : Dev nD) (t : Fin cfg1.N) (u : Fin 1) (r : Fin 512) (d' : Fin 1024) :
    k1_pay1 (F := Ideal) (ablk V c 0 t) (ablk V c 1 t) (ix3 u r d')
      = Oarr (V c main_v1_0) (V c main_v1_1) (((cfg1.win 2).blk t).view.emb (ix3 u r d')) := by
  rw [avTile_apply]
  unfold Oarr
  refine Finset.sum_congr rfl fun e _ => ?_
  rw [qRead V c t u r e d', gRead V c t u r e d']

/-- What point t writes back is block t of `Oarr`. -/
theorem oFlushed (c : Dev nD) (t : Fin cfg1.N) :
    (dat1 V c).flushed 2 t = ((cfg1.win 2).blk t).view.read (Elt Ideal) (Oarr (V c main_v1_0) (V c main_v1_1)) := by
  show (cfg1.win 2).cut (grid1.coords t) ((dat1 V c).after 2 t) = _
  rw [after1_2]
  unfold avOut
  rw [View.canon_unit_zero (S := S1x512x1024) avz3]
  simp only [View.ld_unit_zero (S := S1x512x1024) avz3, View.ld_unit_zero (S := S1x1024x1024) avz3]
  exact funext fun j => (congrArg _ (eq_ix3 j)).trans ((oFlushed_at V c t (j 0) (j 1) (j 2)).trans (congrArg _ (congrArg _ (eq_ix3 j).symm)))

theorem mem_blkO (t : Fin cfg1.N) (i : S2x4096x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v2).slice (win1_2.rect t)).set ↔ _
  rw [View.set_slice_whole, Rect.mem_set_unit]
  exact Iff.rfl

theorem coverO (i : S2x4096x1024.Idx) : ∃ t : Fin cfg1.N, (cfg1.win 2).flush t = true ∧ i ∈ ((cfg1.win 2).blk t).view.set := by
  have h0 : (i 0).val < 2 := (i 0).isLt
  have h1 : (i 1).val < 4096 := (i 1).isLt
  have h2 : (i 2).val < 1024 := (i 2).isLt
  have hN : cfg1.N = 16 := N_1
  refine ⟨⟨(i 0).val * 8 + (i 1).val / 512, by omega⟩, flush1_2 _, ?_⟩
  rw [mem_blkO]
  obtain ⟨-, -, -, -, -, -, e6, e7, e8⟩ := idx1 ⟨(i 0).val * 8 + (i 1).val / 512, by omega⟩
  intro a
  match a with
  | ⟨0, _⟩ => show win1_2.index _ (0 : Fin 3) * 1 ≤ (i 0).val ∧ (i 0).val < win1_2.index _ (0 : Fin 3) * 1 + 1; dsimp only at e6; omega
  | ⟨1, _⟩ => show win1_2.index _ (1 : Fin 3) * 512 ≤ (i 1).val ∧ (i 1).val < win1_2.index _ (1 : Fin 3) * 512 + 512; dsimp only at e7; omega
  | ⟨2, _⟩ => show win1_2.index _ (2 : Fin 3) * 1024 ≤ (i 2).val ∧ (i 2).val < win1_2.index _ (2 : Fin 3) * 1024 + 1024; omega

/-- The result array after the region. -/
theorem arrO (c : Dev nD) : (dat1 V c).arrAt 2 cfg1.N = Oarr (V c main_v1_0) (V c main_v1_1) :=
  (dat1 V c).arrAt_eq_of_cover 2 (Oarr (V c main_v1_0) (V c main_v1_1)) (fun t _ => oFlushed V c t) coverO

end Cert.KernelIdeal.Lin

end
-- ==== Proof.Ideal.RefValue.lean ====
/-
  The reference read at an index, and the law that joins it to the kernel's arrangement.
  The reference's result at (b, n, d') is Σ_m (Σ_e Q(b, n, e) · X(b, m, e)) · X(b, m, d') with Q(b, n, e) = Σ_d X(b, n, d) · W(e, d):
  its three contractions one after the other. The kernel's arrangement is Σ_e Q(b, n, e) · (Σ_m X(b, m, e) · X(b, m, d')).
  The two agree when every entry of X and W is a real number: Q's entries are then real, and the triple product
  re-associates over the reals.
-/
import proofs.«138249_j26345329393767_1_alg».proof.Proof.Gen.ReferenceIdeal.Read
import proofs.«138249_j26345329393767_1_alg».proof.Proof.Ideal.Algebra

noncomputable section

namespace Cert.ReferenceIdeal.RefValue

open Idealize.ShloMosaic Idealize.ShloMosaic.ValueIdx
open Cert.ReferenceIdeal Cert.ReferenceIdeal.Read Cert.KernelIdeal.Lin

/-- The reference's result at (b, n, d'). -/
theorem ref_apply (X : (⟨S2x4096x1024, .f32⟩ : BufTy).Contents (Elt Ideal)) (W : (⟨S1024x1024, .f32⟩ : BufTy).Contents (Elt Ideal)) (b : Fin 2) (n : Fin 4096) (d' : Fin 1024) :
    val_main_v2 (F := Ideal) X W (ix3 b n d')
      = ∑ m : Fin 4096, (∑ e : Fin 1024, (∑ d : Fin 1024, X (ix3 b n d) * W (ix2 e d)) * X (ix3 b m e)) * X (ix3 b m d') := by
  rw [val_main_v2_apply]
  refine Finset.sum_congr rfl fun m _ => ?_
  have e1 : lidx_main_v2 (ix3 b n d') m = ix3 b n m := funext fun a => Fin.ext (by
    match a with | ⟨0, _⟩ => rfl | ⟨1, _⟩ => rfl | ⟨2, _⟩ => rfl)
  have e2 : ridx_main_v2 (ix3 b n d') m = ix3 b m d' := funext fun a => Fin.ext (by
    match a with | ⟨0, _⟩ => rfl | ⟨1, _⟩ => rfl | ⟨2, _⟩ => rfl)
  rw [e1, e2, val_main_v1_apply]
  refine congrArg (· * X (ix3 b m d')) (Finset.sum_congr rfl fun e _ => ?_)
  have e3 : lidx_main_v1 (ix3 b n m) e = ix3 b n e := funext fun a => Fin.ext (by
    match a with | ⟨0, _⟩ => rfl | ⟨1, _⟩ => rfl | ⟨2, _⟩ => rfl)
  have e4 : ridx_main_v1 (ix3 b n m) e = ix3 b m e := funext fun a => Fin.ext (by
    match a with | ⟨0, _⟩ => rfl | ⟨1, _⟩ => rfl | ⟨2, _⟩ => rfl)
  rw [e3, e4, val_main_v0_apply]
  refine congrArg (· * X (ix3 b m e)) (Finset.sum_congr rfl fun d _ => ?_)
  have e5 : lidx_main_v0 (ix3 b n e) d = ix3 b n d := funext fun a => Fin.ext (by
    match a with | ⟨0, _⟩ => rfl | ⟨1, _⟩ => rfl | ⟨2, _⟩ => rfl)
  have e6 : ridx_main_v0 (ix3 b n e) d = ix2 e d := funext fun a => Fin.ext (by
    match a with | ⟨0, _⟩ => rfl | ⟨1, _⟩ => rfl)
  rw [e5, e6]

/-- Q · (XᵀX) = (Q · Xᵀ) · X at an entry, for real-valued X and W. -/
theorem reassoc (X : (⟨S2x4096x1024, .f32⟩ : BufTy).Contents (Elt Ideal)) (W : (⟨S1024x1024, .f32⟩ : BufTy).Contents (Elt Ideal))
    (hX : ∀ i, ∃ r : ℝ, X i = (r : EReal)) (hW : ∀ i, ∃ r : ℝ, W i = (r : EReal)) (b : Fin 2) (n : Fin 4096) (d' : Fin 1024) :
    ∑ e : Fin 1024, (∑ d : Fin 1024, X (ix3 b n d) * W (ix2 e d)) * (∑ m : Fin 4096, X (ix3 b m e) * X (ix3 b m d'))
      = ∑ m : Fin 4096, (∑ e : Fin 1024, (∑ d : Fin 1024, X (ix3 b n d) * W (ix2 e d)) * X (ix3 b m e)) * X (ix3 b m d') := by
  choose xr hxr using hX
  choose wr hwr using hW
  have hq : ∀ e : Fin 1024, ∑ d : Fin 1024, X (ix3 b n d) * W (ix2 e d) = ((∑ d : Fin 1024, xr (ix3 b n d) * wr (ix2 e d) : ℝ) : EReal) := fun e => by
    simp only [hxr, hwr]; exact coe_sum_mul _ _
  simp only [hq]
  simp only [hxr]
  exact assoc_finite (fun e : Fin 1024 => ∑ d : Fin 1024, xr (ix3 b n d) * wr (ix2 e d)) (fun (m : Fin 4096) (e : Fin 1024) => xr (ix3 b m e)) (fun m : Fin 4096 => xr (ix3 b m d'))

end Cert.ReferenceIdeal.RefValue

end
-- ==== Proof.Ideal.Bridge.lean ====
/-
  The kernel's result as one function of the two arguments, and that function against the reference's.
  Through the fold of the run: the result array is the second region's product of what the first region left,
  Q = X · Wᵀ (the weights transposed by the host operation before it, which leaves the activations alone) and the
  Gram matrices XᵦᵀXᵦ. At an index this is Σ_e Q(b, n, e) · (Σ_m X(b, m, e) · X(b, m, d')), the reference's triple
  product re-associated: equal when every entry of the arguments is a real number.
-/
import proofs.«138249_j26345329393767_1_alg».proof.Proof.Ideal.Run
import proofs.«138249_j26345329393767_1_alg».proof.Proof.Ideal.QgValue
import proofs.«138249_j26345329393767_1_alg».proof.Proof.Ideal.AvValue
import proofs.«138249_j26345329393767_1_alg».proof.Proof.Ideal.RefValue

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The transpose does not write the activations. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl

/-- What the transpose leaves in its result buffer. -/
theorem V1_main_v0 (c : Dev nD) :
    (V1 m ρ c main_v0 : (⟨S1024x1024, .f32⟩ : BufTy).Contents (Elt Ideal)) = transpose S1024x1024 [1, 0] (m ((c : Thread nD τ).loc main_arg1)) Facts₀.transposes_S1024x1024_S1024x1024_1_0 := by
  show StableHlo.after hostOps0 (W0 m ρ c) (Proc.devRef .tc main_v0) = _
  after_results
  all_goals rfl

/-- The kernel's result as a function of the activations X and the weights W. -/
def Kout (X : (⟨S2x4096x1024, .f32⟩ : BufTy).Contents (Elt Ideal)) (W : (⟨S1024x1024, .f32⟩ : BufTy).Contents (Elt Ideal)) : (⟨S2x4096x1024, .f32⟩ : BufTy).Contents (Elt Ideal) :=
  Oarr (Qarr X (transpose S1024x1024 [1, 0] W Facts₀.transposes_S1024x1024_S1024x1024_1_0)) (Garr X)

/-- The result buffer at the end of the run. -/
theorem result_value (c : Dev nD) :
    W3 m ρ c (Proc.devRef .tc main_v2) = Kout (m ((c : Thread nD τ).loc main_arg0)) (m ((c : Thread nD τ).loc main_arg1)) := by
  have hq : (V2 m ρ c main_v1_0 : (⟨S2x4096x1024, .f32⟩ : BufTy).Contents (Elt Ideal)) = Qarr (m ((c : Thread nD τ).loc main_arg0)) (transpose S1024x1024 [1, 0] (m ((c : Thread nD τ).loc main_arg1)) Facts₀.transposes_S1024x1024_S1024x1024_1_0) := by
    refine ((W2_arr m ρ c 2).trans (arrQ (V1 m ρ) c)).trans ?_
    rw [V1_main_arg0, V1_main_v0]
  have hg : (V2 m ρ c main_v1_1 : (⟨S2x1024x1024, .f32⟩ : BufTy).Contents (Elt Ideal)) = Garr (m ((c : Thread nD τ).loc main_arg0)) := by
    refine ((W2_arr m ρ c 3).trans (arrG (V1 m ρ) c)).trans ?_
    rw [V1_main_arg0]
  rw [W3_main_v2, arrO, hq, hg]
  rfl

/-- The kernel's function is the reference's stage, at real-valued arguments. -/
theorem result_eq (X : (⟨S2x4096x1024, .f32⟩ : BufTy).Contents (Elt Ideal)) (W : (⟨S1024x1024, .f32⟩ : BufTy).Contents (Elt Ideal))
    (hX : ∀ i, ∃ r : ℝ, X i = (r : EReal)) (hW : ∀ i, ∃ r : ℝ, W i = (r : EReal)) :
    Kout X W = Cert.ReferenceIdeal.Read.val_main_v2 (F := Ideal) X W := by
  funext i
  obtain ⟨b, n, d', rfl⟩ : ∃ (b : Fin 2) (n : Fin 4096) (d' : Fin 1024), i = ix3 b n d' := ⟨i 0, i 1, i 2, eq_ix3 i⟩
  rw [Cert.ReferenceIdeal.RefValue.ref_apply, ← Cert.ReferenceIdeal.RefValue.reassoc X W hX hW b n d']
  show ∑ e : Fin 1024, (∑ d : Fin 1024, X (ix3 b n d) * transpose S1024x1024 [1, 0] W Facts₀.transposes_S1024x1024_S1024x1024_1_0 (ix2 d e)) * (∑ m : Fin 4096, X (ix3 b m e) * X (ix3 b m d')) = _
  refine Finset.sum_congr rfl fun e _ => congrArg (· * _) (Finset.sum_congr rfl fun d _ => ?_)
  rw [transpose_ix2_apply]

end Cert.KernelIdeal.Lin

end
-- ==== Proof.Ideal.Finite.lean ====
/-
  The precondition read: it is the conjunction of two "every entry's absolute value is below +∞" reductions, one per
  argument. An extended real whose absolute value is below +∞ is neither infinity, so it is a real number. Hence under
  the precondition every entry of both arguments is a real number.
-/
import proofs.«138249_j26345329393767_1_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Decode

open Idealize.ShloMosaic Cert.Pre_finite_inputs

instance : Subsingleton S_.Idx := ⟨fun a b => funext fun d => d.elim0⟩

/-- The f32 word of +∞ denotes +∞. -/
theorem inf_word : Ideal.ofBits .f32 0x7F800000#32 = (⊤ : EReal) := by
  simp [Ideal.ofBits, Ideal.ieee]

/-- |x| < +∞ makes x a real number. -/
theorem real_of_cmp (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- Under the precondition every entry of both arguments is a real number. -/
theorem finite_of_pre (x0 : FVec Ideal S2x4096x1024 .f32) (x1 : FVec Ideal S1024x1024 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  refine ⟨fun i => real_of_cmp _ ?_, fun i => real_of_cmp _ ?_⟩
  · exact Host.reduce_andi_all _ _ _ _ _ ha i
  · exact Host.reduce_andi_all _ _ _ _ _ hb i

end Cert.Pre_finite_inputs.Decode

end
-- ==== Proof.lean ====
/-
  Softmax-free attention, out = ((X · Wᵀ) · Xᵀ) · X per batch, computed by the kernel as (X · Wᵀ) · (Xᵀ · X).

  The kernel runs a host transpose of W and two pallas_calls over a 2 × 8 grid (batch b, row tile n of 512 rows).
  The first writes the tile's rows of Q = X · Wᵀ and adds the tile's XₜᵀXₜ into a scratch accumulator, zeroed at a
  batch's first tile and copied out as the batch's Gram matrix G_b at its last; the second writes the tile's rows of
  Q · G_b. The reference is three contractions in the order written above. Over the extended reals a change of float
  format is the identity and a matrix product into zero is the plain sum, so the two programs differ only in the
  association of the triple product and in summing the 4096 rows as 8 tiles of 512. Regrouping a sum is free in a
  commutative monoid; re-associating the product moves a factor across a sum and needs the entries to be real
  numbers, which is what the precondition says of both arguments.

  Frames: each kernel program is three segments (transpose, first call, second call); per call a body obligation at
  every grid point — the first call's in three control cases, with the accumulator's running sum carried in the
  region invariant — gives the run, whose last state holds every buffer at a fold from the launch memory in which
  the arguments are never written. The reference's frame is its run with the result dropped. No rewrite was applied
  in idealizing the kernel, so the preservation claim is trivial.
-/
import proofs.«138249_j26345329393767_1_alg».proof.Defs
import proofs.«138249_j26345329393767_1_alg».proof.Proof.Gen.Kernel
import proofs.«138249_j26345329393767_1_alg».proof.Proof.Gen.KernelIdeal
import proofs.«138249_j26345329393767_1_alg».proof.Proof.Gen.ReferenceIdeal
import proofs.«138249_j26345329393767_1_alg».proof.Proof.Gen.Pre_finite_inputs
import proofs.«138249_j26345329393767_1_alg».proof.Proof.Gen.ReferenceIdeal.Run
import proofs.«138249_j26345329393767_1_alg».proof.Proof.Gen.ReferenceIdeal.Read
import proofs.«138249_j26345329393767_1_alg».proof.Proof.Bits.Run
import proofs.«138249_j26345329393767_1_alg».proof.Proof.Ideal.Run
import proofs.«138249_j26345329393767_1_alg».proof.Proof.Ideal.Bridge
import proofs.«138249_j26345329393767_1_alg».proof.Proof.Ideal.Finite

noncomputable section

namespace Cert.Proof

open Idealize.ShloMosaic Idealize.ShloMosaic.TcCoe Idealize.SL.Sem

theorem frame_kernel : Cert.frame_Kernel := fun m ρ _ => Cert.Kernel.Lin.frame m ρ

theorem frame_kernelIdeal : Cert.frame_KernelIdeal := fun m ρ _ => Cert.KernelIdeal.Lin.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the kernel's function of the arguments: the kernel by its run
    read through the fold, the reference because its stage is that function at real-valued arguments. -/
theorem algebraic : Cert.algebraic_KernelIdeal_ReferenceIdeal := by
  intro m ρ m' ρ' hpre hagree
  refine ⟨fun c => Cert.KernelIdeal.Lin.Kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Lin.mem_uc Cert.KernelIdeal.main_v2 (by decide))).trans (Cert.KernelIdeal.Lin.result_value m ρ c),
       (h c _ (Cert.KernelIdeal.Lin.mem_uc Cert.KernelIdeal.main_arg0 (by decide))).trans (Cert.KernelIdeal.Lin.W3_main_arg0 m ρ c),
       (h c _ (Cert.KernelIdeal.Lin.mem_uc Cert.KernelIdeal.main_arg1 (by decide))).trans (Cert.KernelIdeal.Lin.W3_main_arg1 m ρ c)⟩)
      (Cert.KernelIdeal.Lin.run_all m ρ)
  · refine (θ_run Cert.ReferenceIdeal.defs _ _).mono (fun _ h c => ⟨?_, (h c).2⟩) (Cert.ReferenceIdeal.Value.run (F := Ideal) m' ρ')
    obtain ⟨hX, hW⟩ := Cert.Pre_finite_inputs.Decode.finite_of_pre _ _ (hpre c)
    rw [(h c).1, Cert.ReferenceIdeal.Read.val_main_v2_eq, (hagree c).1, (hagree c).2]
    exact (Cert.KernelIdeal.Lin.result_eq _ _ hX hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
